-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 256]⟩ ⟨2, ![1024, 1024]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x1024 : Shape := ⟨2, ![256, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel

variable [Facts]

def fn {F : FTy → Type} [FloatOps F] (main_arg0 : FVec F S256x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  main_v3
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Kernel.lean ====
abbrev S256x1024 : Shape := ⟨2, ![256, 1024]⟩
abbrev S1024x256 : Shape := ⟨2, ![1024, 256]⟩
abbrev S3 : Shape := ⟨1, ![3]⟩
abbrev S_ : Shape := ⟨0, ![]⟩
abbrev S256x256 : Shape := ⟨2, ![256, 256]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | _, _ => ⟨S256x1024, .f32⟩

abbrev bufScoped : (cs : CoreSpace) → Fin (nBuf (.core cs)) → Bool
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  { ofTc nBuf bufTy 1 7 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_37 : BitVec 32 := 256#32
  let v62 : BitVec 32 := Scalar.muli v8 c256_i32_37
  let c0_i32_38 : BitVec 32 := 0#32
  ![v62.toNat, 0]
def k0_off2 (d0 : Dev nD) : Fin 2 → Nat :=
  let c0_i32_39 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v61 : BitVec 32 := Scalar.muli v8 c256_i32
  ![0, v61.toNat]
def k0_off3 (d0 : Dev nD) (c1_i32_40 : BitVec 32) : Fin 2 → Nat :=
  let c0_i32_56 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v65 : BitVec 32 := Scalar.addi v8 c1_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c256_i32_47 : BitVec 32 := 256#32
  let v76 : BitVec 32 := Scalar.muli v75 c256_i32_47
  ![0, v76.toNat]
def k0_dev4 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v78 : BitVec 32 := Scalar.muli v2 c16_i32_51
  let v79 : BitVec 32 := Scalar.addi c0_i32_52 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v80 : BitVec 32 := Scalar.muli v5 c4_i32_53
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v65 : BitVec 32 := Scalar.addi v8 c1_i32_40
  let c4_i32_41 : BitVec 32 := 4#32
  let c0_i32_42 : BitVec 32 := 0#32
  let v66 : BitVec 1 := Scalar.cmpi .eq c4_i32_41 c0_i32_42
  let c1_i32_43 : BitVec 32 := 1#32
  let v67 : BitVec 32 := Scalar.select v66 c1_i32_43 c4_i32_41
  let v68 : BitVec 32 := Scalar.remsi v65 v67
  let c0_i32_45 : BitVec 32 := 0#32
  let v70 : BitVec 1 := Scalar.cmpi .slt v68 c0_i32_45
  let c0_i32_46 : BitVec 32 := 0#32
  let v71 : BitVec 1 := Scalar.cmpi .slt v67 c0_i32_46
  let v72 : BitVec 1 := Scalar.xori v70 v71
  let c0_i32_44 : BitVec 32 := 0#32
  let v69 : BitVec 1 := Scalar.cmpi .ne v68 c0_i32_44
  let v73 : BitVec 1 := Scalar.andi v72 v69
  let v74 : BitVec 32 := Scalar.addi v68 v67
  let v75 : BitVec 32 := Scalar.select v73 v74 v68
  let c1_i32_54 : BitVec 32 := 1#32
  let v82 : BitVec 32 := Scalar.muli v75 c1_i32_54
  let v83 : BitVec 32 := Scalar.addi v81 v82
  v83.toNat
def k0_dev5 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v103 : BitVec 32 := Scalar.muli v2 c16_i32_68
  let v104 : BitVec 32 := Scalar.addi c0_i32_69 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v105 : BitVec 32 := Scalar.muli v5 c4_i32_70
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_57 : BitVec 32 := 2#32
  let v90 : BitVec 32 := Scalar.addi v8 c2_i32_57
  let c4_i32_58 : BitVec 32 := 4#32
  let c0_i32_59 : BitVec 32 := 0#32
  let v91 : BitVec 1 := Scalar.cmpi .eq c4_i32_58 c0_i32_59
  let c1_i32_60 : BitVec 32 := 1#32
  let v92 : BitVec 32 := Scalar.select v91 c1_i32_60 c4_i32_58
  let v93 : BitVec 32 := Scalar.remsi v90 v92
  let c0_i32_62 : BitVec 32 := 0#32
  let v95 : BitVec 1 := Scalar.cmpi .slt v93 c0_i32_62
  let c0_i32_63 : BitVec 32 := 0#32
  let v96 : BitVec 1 := Scalar.cmpi .slt v92 c0_i32_63
  let v97 : BitVec 1 := Scalar.xori v95 v96
  let c0_i32_61 : BitVec 32 := 0#32
  let v94 : BitVec 1 := Scalar.cmpi .ne v93 c0_i32_61
  let v98 : BitVec 1 := Scalar.andi v97 v94
  let v99 : BitVec 32 := Scalar.addi v93 v92
  let v100 : BitVec 32 := Scalar.select v98 v99 v93
  let c1_i32_71 : BitVec 32 := 1#32
  let v107 : BitVec 32 := Scalar.muli v100 c1_i32_71
  let v108 : BitVec 32 := Scalar.addi v106 v107
  v108.toNat
def k0_dev6 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v128 : BitVec 32 := Scalar.muli v2 c16_i32_85
  let v129 : BitVec 32 := Scalar.addi c0_i32_86 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v130 : BitVec 32 := Scalar.muli v5 c4_i32_87
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_74 : BitVec 32 := 3#32
  let v115 : BitVec 32 := Scalar.addi v8 c3_i32_74
  let c4_i32_75 : BitVec 32 := 4#32
  let c0_i32_76 : BitVec 32 := 0#32
  let v116 : BitVec 1 := Scalar.cmpi .eq c4_i32_75 c0_i32_76
  let c1_i32_77 : BitVec 32 := 1#32
  let v117 : BitVec 32 := Scalar.select v116 c1_i32_77 c4_i32_75
  let v118 : BitVec 32 := Scalar.remsi v115 v117
  let c0_i32_79 : BitVec 32 := 0#32
  let v120 : BitVec 1 := Scalar.cmpi .slt v118 c0_i32_79
  let c0_i32_80 : BitVec 32 := 0#32
  let v121 : BitVec 1 := Scalar.cmpi .slt v117 c0_i32_80
  let v122 : BitVec 1 := Scalar.xori v120 v121
  let c0_i32_78 : BitVec 32 := 0#32
  let v119 : BitVec 1 := Scalar.cmpi .ne v118 c0_i32_78
  let v123 : BitVec 1 := Scalar.andi v122 v119
  let v124 : BitVec 32 := Scalar.addi v118 v117
  let v125 : BitVec 32 := Scalar.select v123 v124 v118
  let c1_i32_88 : BitVec 32 := 1#32
  let v132 : BitVec 32 := Scalar.muli v125 c1_i32_88
  let v133 : BitVec 32 := Scalar.addi v131 v132
  v133.toNat

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hcc0_scratch0 : 0 + S3.numel ≤ 7
  hcc0_scratch1 : 3 + S3.numel ≤ 7
  hcc0_scratch2 : 6 + S_.numel ≤ 7
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S256x256.size a ≤ S1024x256.size a
  k0_off2_inb : ∀ d0 : Dev nD, ∀ a, (k0_off2 d0) a + S256x256.size a ≤ S256x1024.size a
  k0_off3_inb : ∀ d0 : Dev nD, ∀ (r : Fin 3), ∀ a, (k0_off3 d0 (BitVec.ofNat 32 (1 + r.val))) a + S256x256.size a ≤ S256x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD

variable [Facts₀]

abbrev cc0_scratch0 : DmaSems sig S3 := SemArray.consecutive 0 S3 hcc0_scratch0
abbrev cc0_scratch1 : DmaSems sig S3 := SemArray.consecutive 3 S3 hcc0_scratch1
abbrev cc0_scratch2 : DmaSems sig S_ := SemArray.consecutive 6 S_ hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/-
  The z-groups of the 2 × 4 × 4 mesh. Device `c` sits at (c / 16, c / 4 % 4, c % 4); the all-to-all runs inside
  the group of four devices that share the first two coordinates. `tgt c j` is the member of `c`'s group whose
  last coordinate is `(c % 4 + j + 1) % 4`: the device `c` signals j-th and sends its (j+1)-th remote block to.
  Going round by `j` and then by `2 - j` adds 4 to the last coordinate, so `tgt · (2 - j)` inverts `tgt · j`.
  The printed device chains and slice offsets are evaluated over the 32 devices once, here.
-/
import proofs.«900408_g7700000000000409_dist_a2a_v7x_xyz2x4x4_z_m256_n256_f32_1_alg».proof.Proof.Gen.KernelIdeal

namespace Cert.KernelIdeal.A2A

open Cert.KernelIdeal Cert.KernelIdeal.Gen
open Idealize.ShloMosaic

/-- The group member `j + 1` steps after `c` along the last mesh axis. -/
def tgt (c : Dev nD) (j : Fin 3) : Dev nD :=
  ⟨4 * (c.val / 4) + (c.val % 4 + j.val + 1) % 4, by have h : c.val < 32 := c.isLt; show _ < 32; omega⟩

/-- The group member whose last coordinate is `k`. -/
def zmem (c : Dev nD) (k : Fin 4) : Dev nD :=
  ⟨4 * (c.val / 4) + k.val, by have h : c.val < 32 := c.isLt; show _ < 32; omega⟩

theorem tgt_val (c : Dev nD) (j : Fin 3) : (tgt c j).val = 4 * (c.val / 4) + (c.val % 4 + j.val + 1) % 4 := rfl
theorem tgt_mod (c : Dev nD) (j : Fin 3) : (tgt c j).val % 4 = (c.val % 4 + j.val + 1) % 4 := by rw [tgt_val]; omega
theorem tgt_div (c : Dev nD) (j : Fin 3) : (tgt c j).val / 4 = c.val / 4 := by rw [tgt_val]; omega

theorem tgt_tgt_rev (c : Dev nD) (j : Fin 3) : tgt (tgt c j) j.rev = c := by revert c j; decide
theorem tgt_rev_tgt (c : Dev nD) (j : Fin 3) : tgt (tgt c j.rev) j = c := by revert c j; decide
theorem tgt_ne_self (c : Dev nD) (j : Fin 3) : tgt c j ≠ c := by revert c j; decide
theorem tgt_inj_right (c : Dev nD) (j j' : Fin 3) (h : tgt c j = tgt c j') : j = j' := by revert c j j'; decide

/-- Stepping by `j` is a permutation of the devices; its inverse steps by `2 - j`. -/
def step (j : Fin 3) : Dev nD ≃ Dev nD :=
  ⟨fun c => tgt c j, fun c => tgt c j.rev, fun c => tgt_tgt_rev c j, fun c => tgt_rev_tgt c j⟩

/-- The three signals go to the group members 1, 2, 3 steps on, and so do the three remote copies. -/
theorem dev1_eq (c : Dev nD) : (⟨k0_dev1 c, k0_dev1_lt c⟩ : Dev nD) = tgt c 0 := by revert c; decide +kernel
theorem dev2_eq (c : Dev nD) : (⟨k0_dev2 c, k0_dev2_lt c⟩ : Dev nD) = tgt c 1 := by revert c; decide +kernel
theorem dev3_eq (c : Dev nD) : (⟨k0_dev3 c, k0_dev3_lt c⟩ : Dev nD) = tgt c 2 := by revert c; decide +kernel
theorem dev4_eq (c : Dev nD) : (⟨k0_dev4 c, k0_dev4_lt c⟩ : Dev nD) = tgt c 0 := by revert c; decide +kernel
theorem dev5_eq (c : Dev nD) : (⟨k0_dev5 c, k0_dev5_lt c⟩ : Dev nD) = tgt c 1 := by revert c; decide +kernel
theorem dev6_eq (c : Dev nD) : (⟨k0_dev6 c, k0_dev6_lt c⟩ : Dev nD) = tgt c 2 := by revert c; decide +kernel

/-- The source columns of the (j+1)-th remote copy start at 256 times the destination's last coordinate. -/
theorem off3_eq (c : Dev nD) (j : Fin 3) :
    k0_off3 c (BitVec.ofNat 32 (1 + j.val)) = ![0, 256 * ((c.val % 4 + j.val + 1) % 4)] := by
  revert c j; decide +kernel

end Cert.KernelIdeal.A2A
-- ==== Proof.Views.lean ====
/-
  The buffers of the all-to-all and what they end up holding. Device `c` holds the block `X c` of 256 rows of
  the argument; it copies the column block `c % 4` into rows `256 (c % 4) …` of its own result and sends column
  block `k` to the group member at coordinate `k`, into the same rows of that member's result. So the result of
  `c` ends up with row block `k` holding column block `c % 4` of the argument block of the group member `k`:
  `outFinal`.
-/
import proofs.«900408_g7700000000000409_dist_a2a_v7x_xyz2x4x4_z_m256_n256_f32_1_alg».proof.Proof.Mesh
import Idealize.ShloMosaic.Lib.ValueIdx

noncomputable section

namespace Cert.KernelIdeal.A2A

open Cert.KernelIdeal Cert.KernelIdeal.Gen
open Idealize.ShloMosaic Idealize.ShloMosaic.TcCoe

variable {F : FTy → Type} [FloatOps F]

/-! ## The memrefs -/

abbrev aM : Memref sig .tc .hbm S256x1024 .f32 := Memref.whole main_arg0
abbrev oM : Memref sig .tc .hbm S1024x256 .f32 := Memref.whole main_v1

/-- The 256 rows of a result array that device `p` fills, on whichever device of its group: rows `256 (p % 4) …`. -/
abbrev oS (p : Dev nD) : Memref sig .tc .hbm S256x256 .f32 :=
  oM.slice (Rect.unit (s := S1024x256) (k0_off1 p) S256x256.size (k0_off1_inb p)) (fun _ => rfl)
/-- The column block of its argument a device keeps: columns `256 (c % 4) …`. -/
abbrev aL (c : Dev nD) : Memref sig .tc .hbm S256x256 .f32 :=
  aM.slice (Rect.unit (s := S256x1024) (k0_off2 c) S256x256.size (k0_off2_inb c)) (fun _ => rfl)
/-- The column block it sends to `tgt c j`: columns `256 ((c % 4 + j + 1) % 4) …`. -/
abbrev aR (c : Dev nD) (j : Fin 3) : Memref sig .tc .hbm S256x256 .f32 :=
  aM.slice (Rect.unit (s := S256x1024) (k0_off3 c (BitVec.ofNat 32 (1 + j.val))) S256x256.size (k0_off3_inb c j)) (fun _ => rfl)

/-- What a transfer of one 256 × 256 block credits a DMA semaphore. -/
abbrev N : ℕ := (oS (0 : Dev nD)).view.dmaCredit
theorem N_pos : 0 < N := View.dmaCredit_pos _ (by decide)
theorem N_oS (p : Dev nD) : (oS p).view.dmaCredit = N := rfl
theorem N_aL (c : Dev nD) : (aL c).view.dmaCredit = N := rfl
theorem N_aR (c : Dev nD) (j : Fin 3) : (aR c j).view.dmaCredit = N := rfl

/-! ## Contents -/

variable (m : (ℓ : Loc nD τ sig) → Buf (Elt F) ℓ)

/-- Device `c`'s block of the argument, as launched. -/
def X (c : Dev nD) : Buf (Elt F) ((c : Thread nD τ).loc main_arg0) := m ((c : Thread nD τ).loc main_arg0)

/-- What device `c`'s result holds in the end: at row `i₀`, column `i₁`, entry `(i₀ % 256, 256 (c % 4) + i₁)` of the
    argument block of the group member whose last coordinate is `i₀ / 256`. -/
def outFinal (c : Dev nD) : Buf (Elt F) ((c : Thread nD τ).loc main_v1) := fun i =>
  X m (zmem c ⟨(i 0).val / 256, by have := (i 0).isLt; show _ < 4; change (i 0).val < 1024 at this; omega⟩)
    (ValueIdx.ix2 (⟨(i 0).val % 256, Nat.mod_lt _ (by decide)⟩ : Fin 256)
      (⟨256 * (c.val % 4) + (i 1).val, by have := (i 1).isLt; change (i 1).val < 256 at this; omega⟩ : Fin 1024))

end Cert.KernelIdeal.A2A

end
-- ==== Proof.Sched.lean ====
/-
  The protocol of the all-to-all under the rounds discipline, one round per cell.
  Every device `c` has eight cells: the barrier semaphore (three duties of one unit: duty `d` is paid by the signal
  number `d` of the group member `tgt c (2 - d)`, whose `tgt · d` is `c`), three send cells and three receive cells
  (one duty each, of a block's credit) and the cell of its local copy (one duty).
  What a landing hands the waiter: a barrier signal from `p` hands `c` the 256 rows of `p`'s result that `c` will
  fill; the send cell `j` gives back the column block sent to `tgt c j`; the receive cell `j` gives the rows of `c`'s
  result that `tgt c (2 - j)` filled, holding their final contents; the local cell gives `c`'s own rows at their
  final contents and the column block it kept.
  A device owes, from launch, one barrier unit to each of the three others of its group and a block's credit to the
  receive cell `j` of `tgt c j`; it waits on its barrier below the receive cells it still owes (levels 1 and 2).
-/
import proofs.«900408_g7700000000000409_dist_a2a_v7x_xyz2x4x4_z_m256_n256_f32_1_alg».proof.Proof.Views
import proofs.«900408_g7700000000000409_dist_a2a_v7x_xyz2x4x4_z_m256_n256_f32_1_alg».proof.Proof.Gen.KernelIdeal.Skeleton
import proofs.«900408_g7700000000000409_dist_a2a_v7x_xyz2x4x4_z_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem
abbrev sndS (j : Fin 3) : DmaSem sig := ⟨j.val, by have := j.isLt; show j.val < 7; omega⟩
abbrev rcvS (j : Fin 3) : DmaSem sig := ⟨3 + j.val, by have := j.isLt; show 3 + j.val < 7; omega⟩
abbrev locS : DmaSem sig := ⟨6, by show 6 < 7; omega⟩

abbrev barCell (c : Dev nD) : GSem nD τ sig := ((c : Thread nD τ), .reg barS)
abbrev sndCell (c : Dev nD) (j : Fin 3) : GSem nD τ sig := ((c : Thread nD τ), .dma (sndS j))
abbrev rcvCell (c : Dev nD) (j : Fin 3) : GSem nD τ sig := ((c : Thread nD τ), .dma (rcvS j))
abbrev locCell (c : Dev nD) : GSem nD τ sig := ((c : Thread nD τ), .dma locS)

/-- The kernel's own (scoped) semaphores: the seven DMA semaphores. -/
abbrev osem : Fin 7 → SemLoc sig := fun i => .dma i
/-- All eight cells of a device: barrier, send 0–2, receive 0–2, local. -/
abbrev csem : Fin 8 → SemLoc sig := fun
  | 0 => .reg barS | 1 => .dma (sndS 0) | 2 => .dma (sndS 1) | 3 => .dma (sndS 2)
  | 4 => .dma (rcvS 0) | 5 => .dma (rcvS 1) | 6 => .dma (rcvS 2) | 7 => .dma locS
abbrev kcell (ck : Dev nD × Fin 8) : GSem nD τ sig := ((ck.1 : Thread nD τ), csem ck.2)

/-! ## What the cells hand over -/

/-- On device `c'`, the rows of its result that `p` fills, holding `f`. -/
def oPts (c' p : Dev nD) (f : Buf (Elt F) ((oS p).view.loc (c' : Thread nD τ))) : sProp 𝕄 :=
  (oS p).view.loc (c' : Thread nD τ) ↦[(oS p).view.set]{fullShare} f
/-- The column block `c` keeps, and the one it sends to `tgt c j`, as launched. -/
def aLPts (c : Dev nD) : sProp 𝕄 := (aL c).view.loc (c : Thread nD τ) ↦[(aL c).view.set]{fullShare} X m c
def aRPts (c : Dev nD) (j : Fin 3) : sProp 𝕄 := (aR c j).view.loc (c : Thread nD τ) ↦[(aR c j).view.set]{fullShare} X m c

def barPay (c : Dev nD) (d : Fin 3) : sProp 𝕄 := iprop(∃ f, oPts (tgt c d.rev) c f)
def sndPay (c : Dev nD) (j : Fin 3) : sProp 𝕄 := aRPts m c j
def rcvPay (c : Dev nD) (j : Fin 3) : sProp 𝕄 := oPts c (tgt c j.rev) (outFinal m c)
def locPay (c : Dev nD) : sProp 𝕄 := iprop(oPts c c (outFinal m c) ∗ aLPts m c)

omit [FloatOps F] in
instance oPts_storable (c' p : Dev nD) (f) : BI.Storable (upEmb : UEmb _ 𝕄) (oPts (F := F) c' p f) := by unfold oPts; infer_instance
omit [FloatOps F] in
instance aLPts_storable (c : Dev nD) : BI.Storable (upEmb : UEmb _ 𝕄) (aLPts (F := F) m c) := by unfold aLPts; infer_instance
omit [FloatOps F] in
instance aRPts_storable (c : Dev nD) (j : Fin 3) : BI.Storable (upEmb : UEmb _ 𝕄) (aRPts (F := F) m c j) := by unfold aRPts; infer_instance

/-! ## The schedule -/

/-- One round: a barrier cell has three duties of one unit, a DMA cell one duty of a block's credit. -/
def a2aRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma s =>
      if h : s.val < 3 then sndPay m g.1.1 ⟨s.val, h⟩
      else if h' : s.val < 6 then rcvPay m g.1.1 ⟨s.val - 3, by omega⟩
      else locPay m g.1.1
  amount_pos g _ _ _ := by
    rcases g with ⟨t, _ | _⟩
    · exact Nat.one_pos
    · exact N_pos

omit [FloatOps F] in
instance a2aRd_payload_storable (g : GSem nD τ sig) (r : ℕ) (d : Fin 3) :
    BI.Storable (upEmb : UEmb _ 𝕄) ((a2aRd (F := F) m).payload g r d) := by
  rcases g with ⟨t, s | s⟩
  · show BI.Storable upEmb (barPay t.1 d); unfold barPay; infer_instance
  · show BI.Storable upEmb (if h : s.val < 3 then sndPay m t.1 ⟨s.val, h⟩
      else if h' : s.val < 6 then rcvPay m t.1 ⟨s.val - 3, by omega⟩ else locPay m t.1)
    unfold sndPay rcvPay locPay
    (repeat' split) <;> infer_instance

section Sched
variable (c : Dev nD) (j : Fin 3)

omit [FloatOps F] in
theorem duties_bar : (a2aRd (F := F) m).duties (barCell c) 0 = Finset.univ := by dsimp only [a2aRd]; exact if_pos ⟨rfl, rfl⟩
omit [FloatOps F] in
theorem duties_snd : (a2aRd (F := F) m).duties (sndCell c j) 0 = {0} := by dsimp only [a2aRd]; exact if_pos ⟨rfl, rfl⟩
omit [FloatOps F] in
theorem duties_rcv : (a2aRd (F := F) m).duties (rcvCell c j) 0 = {0} := by dsimp only [a2aRd]; exact if_pos ⟨rfl, rfl⟩
omit [FloatOps F] in
theorem duties_loc : (a2aRd (F := F) m).duties (locCell c) 0 = {0} := by dsimp only [a2aRd]; exact if_pos ⟨rfl, rfl⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Fin 3) : (a2aRd (F := F) m).amount (barCell c) 0 d = 1 := rfl
omit [FloatOps F] in
theorem amount_snd (d : Fin 3) : (a2aRd (F := F) m).amount (sndCell c j) 0 d = N := rfl
omit [FloatOps F] in
theorem amount_rcv (d : Fin 3) : (a2aRd (F := F) m).amount (rcvCell c j) 0 d = N := rfl
omit [FloatOps F] in
theorem amount_loc (d : Fin 3) : (a2aRd (F := F) m).amount (locCell c) 0 d = N := rfl

omit [FloatOps F] in
theorem expect_bar : (a2aRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_snd : (a2aRd (F := F) m).expect (sndCell c j) 0 = N := by
  unfold Schedule.expect Schedule.amountOf; rw [duties_snd, Finset.sum_singleton, amount_snd]
omit [FloatOps F] in
theorem expect_rcv : (a2aRd (F := F) m).expect (rcvCell c j) 0 = N := by
  unfold Schedule.expect Schedule.amountOf; rw [duties_rcv, Finset.sum_singleton, amount_rcv]
omit [FloatOps F] in
theorem expect_loc : (a2aRd (F := F) m).expect (locCell c) 0 = N := by
  unfold Schedule.expect Schedule.amountOf; rw [duties_loc, Finset.sum_singleton, amount_loc]

omit [FloatOps F] in
theorem payload_bar (d : Fin 3) : (a2aRd (F := F) m).payload (barCell c) 0 d = barPay c d := rfl
omit [FloatOps F] in
theorem payload_snd (d : Fin 3) : (a2aRd (F := F) m).payload (sndCell c j) 0 d = sndPay m c j := by
  dsimp only [a2aRd]; rw [dif_pos j.isLt]
omit [FloatOps F] in
theorem payload_rcv (d : Fin 3) : (a2aRd (F := F) m).payload (rcvCell c j) 0 d = rcvPay m c j := by
  dsimp only [a2aRd]
  rw [dif_neg (by show ¬ (3 + j.val < 3); omega), dif_pos (by have := j.isLt; show 3 + j.val < 6; omega)]
  exact congrArg (rcvPay m c) (Fin.ext (by show 3 + j.val - 3 = j.val; omega))
omit [FloatOps F] in
theorem payload_loc (d : Fin 3) : (a2aRd (F := F) m).payload (locCell c) 0 d = locPay m c := by
  dsimp only [a2aRd]
  rw [dif_neg (by show ¬ (6 < 3); omega), dif_neg (by show ¬ (6 < 6); omega)]

omit [FloatOps F] in
/-- The rest of the barrier cell's round, no duty taken: the three groups of rows. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, bigSep_univ_eq_bigSepL [0, 1, 2] (by decide) (by decide)]
  rfl
omit [FloatOps F] in
theorem rest_snd : bigSep ((a2aRd (F := F) m).duties (sndCell c j) 0 \ ∅) (fun d => (a2aRd (F := F) m).payload (sndCell c j) 0 d) = sndPay m c j := by
  rw [Finset.sdiff_empty, duties_snd, bigSep_singleton, payload_snd]
omit [FloatOps F] in
theorem rest_rcv : bigSep ((a2aRd (F := F) m).duties (rcvCell c j) 0 \ ∅) (fun d => (a2aRd (F := F) m).payload (rcvCell c j) 0 d) = rcvPay m c j := by
  rw [Finset.sdiff_empty, duties_rcv, bigSep_singleton, payload_rcv]
omit [FloatOps F] in
theorem rest_loc : bigSep ((a2aRd (F := F) m).duties (locCell c) 0 \ ∅) (fun d => (a2aRd (F := F) m).payload (locCell c) 0 d) = locPay m c := by
  rw [Finset.sdiff_empty, duties_loc, bigSep_singleton, payload_loc]

end Sched

end Cert.KernelIdeal.A2A

end
-- ==== Proof.Data.lean ====
/-
  What each device owes at launch, the levels that order its waits, and the proof data of the one grid point:
  the ghost state a device's body starts from and the two states of the region invariant.
-/
import proofs.«900408_g7700000000000409_dist_a2a_v7x_xyz2x4x4_z_m256_n256_f32_1_alg».proof.Proof.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- After its three signals a device still owes the three receive cells it will send to; the first copy (to
    `tgt c 0`) peels the last summand. -/
def OR (c : Dev nD) : CellTallies nD τ sig Unit :=
  tallyAt (rcvCell (tgt c 2) 2) () N + tallyAt (rcvCell (tgt c 1) 1) () N + tallyAt (rcvCell (tgt c 0) 0) () N
def O₂ (c : Dev nD) : CellTallies nD τ sig Unit := OR c + tallyAt (barCell (tgt c 2)) () 1
def O₁ (c : Dev nD) : CellTallies nD τ sig Unit := O₂ c + tallyAt (barCell (tgt c 1)) () 1
/-- From launch: besides, one unit to the barrier cell of each other member of its group; the first signal (to
    `tgt c 0`) peels the last summand. -/
def O₀ (c : Dev nD) : CellTallies nD τ sig Unit := O₁ c + tallyAt (barCell (tgt c 0)) () 1

def L (g : GSem nD τ sig) : Finset Unit := if g.1.2 = .tc then {()} else ∅
/-- Barrier cells at 1, receive cells at 2, send and local cells at 0. -/
def lv (g : GSem nD τ sig) (_ : Unit) : ℕ :=
  match g.2 with
  | .reg _ => 1
  | .dma s => if 3 ≤ s.val ∧ s.val < 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_rcv (c : Dev nD) (j : Fin 3) : lv (rcvCell c j) () = 2 := by
  show (if 3 ≤ 3 + j.val ∧ 3 + j.val < 6 then 2 else 0) = 2
  rw [if_pos ⟨by omega, by have := j.isLt; omega⟩]

theorem OR_pos {c : Dev nD} {g : GSem nD τ sig} {u : Unit} (h : 0 < OR c g u) : ∃ j, g = rcvCell (tgt c j) j := by
  unfold OR at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- At its barrier wait a device owes receive cells only, which sit above the barrier cells. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, rfl⟩ := OR_pos hg; rw [L_tc]; exact Finset.mem_singleton_self _)
    (fun p hp => by rw [Finset.mem_singleton.mp hp]; exact le_of_eq (lv_bar c))
    (fun g u hg => by obtain ⟨j, rfl⟩ := OR_pos hg; rw [lv_rcv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own eight,
    the barrier cells of the three others of its group (its signals) and their receive cells it pays (its copies). -/
def invs (K : Dev nD × Fin 8 → ℕ) (c : Dev nD) : sProp 𝕄 :=
  iprop(cellInv ER (a2aRd m) (K (c, 0)) (barCell c)
    ∗ (cellInv ER (a2aRd m) (K (c, 1)) (sndCell c 0) ∗ cellInv ER (a2aRd m) (K (c, 2)) (sndCell c 1) ∗ cellInv ER (a2aRd m) (K (c, 3)) (sndCell c 2))
    ∗ (cellInv ER (a2aRd m) (K (c, 4)) (rcvCell c 0) ∗ cellInv ER (a2aRd m) (K (c, 5)) (rcvCell c 1) ∗ cellInv ER (a2aRd m) (K (c, 6)) (rcvCell c 2))
    ∗ cellInv ER (a2aRd m) (K (c, 7)) (locCell c)
    ∗ (cellInv ER (a2aRd m) (K (tgt c 0, 0)) (barCell (tgt c 0)) ∗ cellInv ER (a2aRd m) (K (tgt c 1, 0)) (barCell (tgt c 1)) ∗ cellInv ER (a2aRd m) (K (tgt c 2, 0)) (barCell (tgt c 2)))
    ∗ (cellInv ER (a2aRd m) (K (tgt c 0, 4)) (rcvCell (tgt c 0) 0) ∗ cellInv ER (a2aRd m) (K (tgt c 1, 5)) (rcvCell (tgt c 1) 1) ∗ cellInv ER (a2aRd m) (K (tgt c 2, 6)) (rcvCell (tgt c 2) 2)))

instance invs_persistent (K : Dev nD × Fin 8 → ℕ) (c : Dev nD) : BI.Persistent (invs m K c) := by unfold invs; infer_instance

/-- Its positions: at the start of round 0 of each of its eight cells. -/
def poss (c : Dev nD) : sProp 𝕄 :=
  iprop(atPos ER (barCell c) 0 ∅ 0
    ∗ (atPos ER (sndCell c 0) 0 ∅ 0 ∗ atPos ER (sndCell c 1) 0 ∅ 0 ∗ atPos ER (sndCell c 2) 0 ∅ 0)
    ∗ (atPos ER (rcvCell c 0) 0 ∅ 0 ∗ atPos ER (rcvCell c 1) 0 ∅ 0 ∗ atPos ER (rcvCell c 2) 0 ∅ 0)
    ∗ atPos ER (locCell c) 0 ∅ 0)

/-- That round 0 is reached, of every cell it pays a duty of. -/
def rchd (c : Dev nD) : sProp 𝕄 :=
  iprop((reached ER (barCell (tgt c 0)) 0 ∗ reached ER (barCell (tgt c 1)) 0 ∗ reached ER (barCell (tgt c 2)) 0)
    ∗ (reached ER (rcvCell (tgt c 0) 0) 0 ∗ reached ER (rcvCell (tgt c 1) 1) 0 ∗ reached ER (rcvCell (tgt c 2) 2) 0)
    ∗ (reached ER (sndCell c 0) 0 ∗ reached ER (sndCell c 1) 0 ∗ reached ER (sndCell c 2) 0)
    ∗ reached ER (locCell c) 0)

instance rchd_persistent (c : Dev nD) : BI.Persistent (rchd (F := F) c) := by unfold rchd; infer_instance

/-- The tokens of the ten duties it pays: signal `j` pays duty `j` of `tgt c j`'s barrier cell, copy `j` the duty of
    `tgt c j`'s receive cell `j` and of its own send cell `j`, the local copy the duty of its local cell. -/
def payToks (c : Dev nD) : sProp 𝕄 :=
  iprop((dutyTok ER (barCell (tgt c 0)) 0 0 ∗ dutyTok ER (barCell (tgt c 1)) 0 1 ∗ dutyTok ER (barCell (tgt c 2)) 0 2)
    ∗ (dutyTok ER (rcvCell (tgt c 0) 0) 0 0 ∗ dutyTok ER (rcvCell (tgt c 1) 1) 0 0 ∗ dutyTok ER (rcvCell (tgt c 2) 2) 0 0)
    ∗ (dutyTok ER (sndCell c 0) 0 0 ∗ dutyTok ER (sndCell c 1) 0 0 ∗ dutyTok ER (sndCell c 2) 0 0)
    ∗ dutyTok ER (locCell c) 0 0)

/-- The protocol's ghost state device `c` starts from. -/
def ghost (K : Dev nD × Fin 8 → ℕ) (c : Dev nD) : sProp 𝕄 :=
  iprop(invs m K c ∗ poss c ∗ rchd c ∗ payToks c)

/-- Its credit: the three units of its barrier cell and the block's credit of each receive cell. -/
def creds (c : Dev nD) : sProp 𝕄 :=
  iprop(cred (tallyAt (barCell c) () 3)
    ∗ cred (tallyAt (rcvCell c 0) () N) ∗ cred (tallyAt (rcvCell c 1) () N) ∗ cred (tallyAt (rcvCell c 2) () N))

/-- What device `c`'s body starts from, besides its two arrays. -/
def start (c : Dev nD) : sProp 𝕄 :=
  iprop((∃ K, ghost m K c) ∗ creds c ∗ levAts L lv)

/-- The two arrays, whole. -/
def argPts (c : Dev nD) : sProp 𝕄 := ((c : Thread nD τ).loc main_arg0) ↦{fullShare} X m c
def outPts (c : Dev nD) (f : Buf (Elt F) ((c : Thread nD τ).loc main_v1)) : sProp 𝕄 := ((c : Thread nD τ).loc main_v1) ↦{fullShare} f

/-- The seven own cells at zero, closed. -/
def zeros (c : Dev nD) : sProp 𝕄 :=
  iprop((semVal (sndCell c 0) 0 ∗ semVal (sndCell c 1) 0 ∗ semVal (sndCell c 2) 0)
    ∗ (semVal (rcvCell c 0) 0 ∗ semVal (rcvCell c 1) 0 ∗ semVal (rcvCell c 2) 0)
    ∗ semVal (locCell c) 0)

def Φ₀ (c : Dev nD) : sProp 𝕄 := iprop(start m c ∗ argPts m c ∗ ∃ f, outPts c f)
/-- After the point: the argument as launched, the result at its final contents, the own cells closed. -/
def Φ₁ (c : Dev nD) : sProp 𝕄 := iprop(argPts m c ∗ outPts c (outFinal m c) ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A

end
-- ==== Proof.Value.lean ====
/-
  The index arithmetic of the all-to-all's values. A result array is four blocks of 256 rows, one per member of the
  group, and an argument block is four blocks of 256 columns, one kept and three sent: the blocks are pairwise disjoint
  and cover their arrays. A copy through a row block of the result of a column block of an argument lands, on the rows
  it writes, exactly what the result holds in the end (`outFinal`). And when the devices' argument blocks are the row
  blocks of one whole array, the final result of a device is its column block of that array.
-/
import proofs.«900408_g7700000000000409_dist_a2a_v7x_xyz2x4x4_z_m256_n256_f32_1_alg».proof.Proof.Views
import Idealize.ShloMosaic.Lib.Layout
import Idealize.ShloMosaic.Lib.Pipeline.Value
import Idealize.ShloMosaic.Lib.ValueIdx

noncomputable section

namespace Cert.KernelIdeal.A2A

open Cert.KernelIdeal Cert.KernelIdeal.Gen
open Idealize.ShloMosaic Idealize.ShloMosaic.TcCoe

variable {F : FTy → Type} [FloatOps F]

/-! ## Which rows and columns a block is -/

/-- The rows of a result array that belong to device `p`: the 256 from `256 (p % 4)`, all columns. -/
theorem mem_oS (p : Dev nD) (i : S1024x256.Idx) :
    i ∈ (oS p).view.set ↔ 256 * (p.val % 4) ≤ (i 0).val ∧ (i 0).val < 256 * (p.val % 4) + 256 := by
  have h : (oS p).view.set = (Rect.unit (s := S1024x256) (k0_off1 p) S256x256.size (k0_off1_inb p)).set :=
    View.set_slice_whole main_v1 _
  have h1 : (i 1).val < 256 := (i 1).isLt
  rw [h, Rect.mem_set_unit, Fin.forall_fin_two, Gen.k0_off1_eq]
  show (256 * (p.val % 4) ≤ (i 0).val ∧ (i 0).val < 256 * (p.val % 4) + 256) ∧ (0 ≤ (i 1).val ∧ (i 1).val < 0 + 256) ↔ _
  omega

/-- The columns of an argument block a device keeps: the 256 from `256 (c % 4)`, all rows. -/
theorem mem_aL (c : Dev nD) (i : S256x1024.Idx) :
    i ∈ (aL c).view.set ↔ 256 * (c.val % 4) ≤ (i 1).val ∧ (i 1).val < 256 * (c.val % 4) + 256 := by
  have h : (aL c).view.set = (Rect.unit (s := S256x1024) (k0_off2 c) S256x256.size (k0_off2_inb c)).set :=
    View.set_slice_whole main_arg0 _
  have h0 : (i 0).val < 256 := (i 0).isLt
  rw [h, Rect.mem_set_unit, Fin.forall_fin_two, Gen.k0_off2_eq]
  show (0 ≤ (i 0).val ∧ (i 0).val < 0 + 256) ∧ (256 * (c.val % 4) ≤ (i 1).val ∧ (i 1).val < 256 * (c.val % 4) + 256) ↔ _
  omega

/-- The columns it sends `j + 1` steps on: the 256 from `256 ((c % 4 + j + 1) % 4)`, all rows. -/
theorem mem_aR (c : Dev nD) (j : Fin 3) (i : S256x1024.Idx) :
    i ∈ (aR c j).view.set ↔ 256 * ((c.val % 4 + j.val + 1) % 4) ≤ (i 1).val ∧ (i 1).val < 256 * ((c.val % 4 + j.val + 1) % 4) + 256 := by
  have h : (aR c j).view.set = (Rect.unit (s := S256x1024) (k0_off3 c (BitVec.ofNat 32 (1 + j.val))) S256x256.size (k0_off3_inb c j)).set :=
    View.set_slice_whole main_arg0 _
  have h0 : (i 0).val < 256 := (i 0).isLt
  rw [h, Rect.mem_set_unit, Fin.forall_fin_two, off3_eq]
  show (0 ≤ (i 0).val ∧ (i 0).val < 0 + 256) ∧ (256 * ((c.val % 4 + j.val + 1) % 4) ≤ (i 1).val ∧ (i 1).val < 256 * ((c.val % 4 + j.val + 1) % 4) + 256) ↔ _
  omega

/-- The rows that belong to the group member `j + 1` steps on. -/
theorem mem_oS_tgt (c : Dev nD) (j : Fin 3) (i : S1024x256.Idx) :
    i ∈ (oS (tgt c j)).view.set ↔ 256 * ((c.val % 4 + j.val + 1) % 4) ≤ (i 0).val ∧ (i 0).val < 256 * ((c.val % 4 + j.val + 1) % 4) + 256 := by
  rw [mem_oS, tgt_mod]

theorem fin3_val0 : ((0 : Fin 3) : ℕ) = 0 := rfl
theorem fin3_val1 : ((1 : Fin 3) : ℕ) = 1 := rfl
theorem fin3_val2 : ((2 : Fin 3) : ℕ) = 2 := rfl

/-! ## The blocks partition their arrays -/

/-- The four row blocks of a result array — the device's own and its three group members' — cover it. -/
theorem oS_cover (c : Dev nD) : (Finset.univ : Finset (Idx ((c : Thread nD τ).loc main_v1))) = (oS c).view.set ∪ ((oS (tgt c 0)).view.set ∪ ((oS (tgt c 1)).view.set ∪ (oS (tgt c 2)).view.set)) := by
  refine (Finset.eq_univ_of_forall fun i => ?_).symm
  have h0 : (i 0).val < 1024 := (i 0).isLt
  rw [Finset.mem_union, Finset.mem_union, Finset.mem_union]
  refine (or_congr (mem_oS c i) (or_congr (mem_oS_tgt c 0 i) (or_congr (mem_oS_tgt c 1 i) (mem_oS_tgt c 2 i)))).mpr ?_
  rw [fin3_val0, fin3_val1, fin3_val2]
  omega

/-- Row blocks of devices at different last coordinates are disjoint. -/
theorem oS_disj (p p' : Dev nD) (h : p.val % 4 ≠ p'.val % 4) : Disjoint (oS p).view.set (oS p').view.set :=
  Finset.disjoint_left.mpr fun i hi hi' => by
    rw [mem_oS] at hi hi'; omega

/-- The four column blocks of an argument block — the one kept and the three sent — cover it. -/
theorem aS_cover (c : Dev nD) : (Finset.univ : Finset (Idx ((c : Thread nD τ).loc main_arg0))) = (aL c).view.set ∪ ((aR c 0).view.set ∪ ((aR c 1).view.set ∪ (aR c 2).view.set)) := by
  refine (Finset.eq_univ_of_forall fun i => ?_).symm
  have h1 : (i 1).val < 1024 := (i 1).isLt
  rw [Finset.mem_union, Finset.mem_union, Finset.mem_union]
  refine (or_congr (mem_aL c i) (or_congr (mem_aR c 0 i) (or_congr (mem_aR c 1 i) (mem_aR c 2 i)))).mpr ?_
  rw [fin3_val0, fin3_val1, fin3_val2]
  omega

/-- The column block kept is disjoint from each one sent. -/
theorem aL_aR_disj (c : Dev nD) (j : Fin 3) : Disjoint (aL c).view.set (aR c j).view.set :=
  Finset.disjoint_left.mpr fun i hi hi' => by
    rw [mem_aL] at hi; rw [mem_aR] at hi'; have := j.isLt; omega

/-- Column blocks sent to different group members are disjoint. -/
theorem aR_aR_disj (c : Dev nD) (j j' : Fin 3) (h : j ≠ j') : Disjoint (aR c j).view.set (aR c j').view.set :=
  Finset.disjoint_left.mpr fun i hi hi' => by
    rw [mem_aR] at hi hi'; have := j.isLt; have := j'.isLt; have : j.val ≠ j'.val := fun e => h (Fin.ext e); omega

/-! ## Where a block's index lands -/

theorem emb_oS_0 (p : Dev nD) (y : S256x256.Idx) : ((oS p).view.emb y 0).val = 256 * (p.val % 4) + (y 0).val := by
  show k0_off1 p 0 + 1 * (y 0).val = _
  rw [Gen.k0_off1_eq]; show 256 * (p.val % 4) + 1 * (y 0).val = _; omega
theorem emb_oS_1 (p : Dev nD) (y : S256x256.Idx) : ((oS p).view.emb y 1).val = (y 1).val := by
  show k0_off1 p 1 + 1 * (y 1).val = _
  rw [Gen.k0_off1_eq]; show 0 + 1 * (y 1).val = _; omega
theorem emb_aL_0 (c : Dev nD) (y : S256x256.Idx) : ((aL c).view.emb y 0).val = (y 0).val := by
  show k0_off2 c 0 + 1 * (y 0).val = _
  rw [Gen.k0_off2_eq]; show 0 + 1 * (y 0).val = _; omega
theorem emb_aL_1 (c : Dev nD) (y : S256x256.Idx) : ((aL c).view.emb y 1).val = 256 * (c.val % 4) + (y 1).val := by
  show k0_off2 c 1 + 1 * (y 1).val = _
  rw [Gen.k0_off2_eq]; show 256 * (c.val % 4) + 1 * (y 1).val = _; omega
theorem emb_aR_0 (c : Dev nD) (j : Fin 3) (y : S256x256.Idx) : ((aR c j).view.emb y 0).val = (y 0).val := by
  show k0_off3 c (BitVec.ofNat 32 (1 + j.val)) 0 + 1 * (y 0).val = _
  rw [off3_eq]; show 0 + 1 * (y 0).val = _; omega
theorem emb_aR_1 (c : Dev nD) (j : Fin 3) (y : S256x256.Idx) :
    ((aR c j).view.emb y 1).val = 256 * ((c.val % 4 + j.val + 1) % 4) + (y 1).val := by
  show k0_off3 c (BitVec.ofNat 32 (1 + j.val)) 1 + 1 * (y 1).val = _
  rw [off3_eq]; show 256 * ((c.val % 4 + j.val + 1) % 4) + 1 * (y 1).val = _; omega

/-- The same entry of the same device's argument block, named twice. -/
theorem X_congr (m : (ℓ : Loc nD τ sig) → Buf (Elt F) ℓ) {d d' : Dev nD} (h : d = d') {x x' : S256x1024.Idx} (hx : x = x') :
    X m d x = X m d' x' := by subst h; subst hx; rfl

theorem ix2_congr {n0 n1 : Nat} {a a' : Fin n0} {b b' : Fin n1} (ha : a.val = a'.val) (hb : b.val = b'.val) :
    ValueIdx.ix2 a b = ValueIdx.ix2 a' b' := by rw [Fin.ext ha, Fin.ext hb]

/-! ## What a copy lands -/

/-- The copy of the column block `q` sends `j + 1` steps on, written over `q`'s row block of the receiver's result
    (whatever those rows held before), is the receiver's final result on the rows written. -/
theorem landed_rem (m : (ℓ : Loc nD τ sig) → Buf (Elt F) ℓ) (q : Dev nD) (j : Fin 3) (fd : Buf (Elt F) ((oS q).view.loc ((tgt q j : Dev nD) : Thread nD τ))) :
    ∀ i ∈ (oS q).view.set, (oS q).view.write (Elt F) fd ((aR q j).view.read (Elt F) (X m q)) Finset.univ i = outFinal m (tgt q j) i := by
  intro i hi
  obtain ⟨y, rfl⟩ := View.exists_emb_of_mem_set _ hi
  rw [View.write_emb_of_mem _ _ (Finset.mem_univ y), View.read_apply, cast_eq, cast_eq]
  have hy0 : (y 0).val < 256 := (y 0).isLt
  have hq : q.val < 32 := q.isLt
  unfold outFinal
  refine X_congr m (Fin.ext ?_) ((ValueIdx.eq_ix2 (n0 := 256) (n1 := 1024) ((aR q j).view.emb y)).trans (ix2_congr ?_ ?_))
  · show q.val = 4 * ((tgt q j).val / 4) + ((oS q).view.emb y 0).val / 256
    rw [tgt_div, emb_oS_0]; omega
  · show ((aR q j).view.emb y 0).val = ((oS q).view.emb y 0).val % 256
    rw [emb_aR_0, emb_oS_0]; omega
  · show ((aR q j).view.emb y 1).val = 256 * ((tgt q j).val % 4) + ((oS q).view.emb y 1).val
    rw [emb_aR_1, emb_oS_1, tgt_mod]

/-- The copy of the column block a device keeps, written over its own row block of its result, is its final result
    on the rows written. -/
theorem landed_loc (m : (ℓ : Loc nD τ sig) → Buf (Elt F) ℓ) (c : Dev nD) (fd : Buf (Elt F) ((oS c).view.loc (c : Thread nD τ))) :
    ∀ i ∈ (oS c).view.set, (oS c).view.write (Elt F) fd ((aL c).view.read (Elt F) (X m c)) Finset.univ i = outFinal m c i := by
  intro i hi
  obtain ⟨y, rfl⟩ := View.exists_emb_of_mem_set _ hi
  rw [View.write_emb_of_mem _ _ (Finset.mem_univ y), View.read_apply, cast_eq, cast_eq]
  have hy0 : (y 0).val < 256 := (y 0).isLt
  have hc : c.val < 32 := c.isLt
  unfold outFinal
  refine X_congr m (Fin.ext ?_) ((ValueIdx.eq_ix2 (n0 := 256) (n1 := 1024) ((aL c).view.emb y)).trans (ix2_congr ?_ ?_))
  · show c.val = 4 * (c.val / 4) + ((oS c).view.emb y 0).val / 256
    rw [emb_oS_0]; omega
  · show ((aL c).view.emb y 0).val = ((oS c).view.emb y 0).val % 256
    rw [emb_aL_0, emb_oS_0]; omega
  · show ((aL c).view.emb y 1).val = 256 * (c.val % 4) + ((oS c).view.emb y 1).val
    rw [emb_aL_1, emb_oS_1]

/-! ## The final result as a block of the whole array -/

/-- On the 2 × 4 × 4 mesh a dimension cut along the last axis gives device `c` block `c % 4`. -/
theorem meshLin_z (c : Nat) : Layout.meshLin [2, 4, 4] c [2] = c % 4 := by
  show c / 1 % 4 * 1 + 0 = c % 4; omega

/-- When each device's argument block is its row block (by last coordinate) of one whole array, the final result of
    device `c` is the column block `c % 4` of that array. -/
theorem outFinal_block (m : (ℓ : Loc nD τ sig) → Buf (Elt F) ℓ) (v : (⟨2, ![1024, 1024]⟩ : Shape).Idx → Elt F .f32)
    (hm : ∀ c : Dev nD, m ((c.tc : Thread nD τ).loc main_arg0) = Layout.blockN ⟨2, ![256, 1024]⟩ ⟨2, ![1024, 1024]⟩ (Layout.meshBlock [2, 4, 4] ![[2], []] c) v) (c : Dev nD) :
    outFinal m c = Layout.blockN ⟨2, ![1024, 256]⟩ ⟨2, ![1024, 1024]⟩ (Layout.meshBlock [2, 4, 4] ![[], [2]] c) v := by
  funext i
  have hi0 : (i 0).val < 1024 := (i 0).isLt
  have hi1 : (i 1).val < 256 := (i 1).isLt
  have hc : c.val < 32 := c.isLt
  unfold outFinal X
  rw [hm, Layout.blockN_apply, Layout.blockN_apply]
  congr 1
  refine funext fun b => Fin.ext ?_
  match b with
  | ⟨0, _⟩ =>
    show Layout.meshLin [2, 4, 4] (zmem c ⟨(i 0).val / 256, _⟩).val [2] * 256 + (i 0).val % 256
        = Layout.meshLin [2, 4, 4] c.val [] * 1024 + (i 0).val
    rw [meshLin_z]
    show (4 * (c.val / 4) + (i 0).val / 256) % 4 * 256 + (i 0).val % 256 = 0 * 1024 + (i 0).val
    omega
  | ⟨1, _⟩ =>
    show 0 * 1024 + (256 * (c.val % 4) + (i 1).val) = Layout.meshLin [2, 4, 4] c.val [2] * 256 + (i 1).val
    rw [meshLin_z]
    omega

/-- info: 'Cert.KernelIdeal.A2A.outFinal_block' depends on axioms: [propext, Classical.choice, Quot.sound] -/
#guard_msgs in #print axioms outFinal_block

end Cert.KernelIdeal.A2A

end
-- ==== Proof.Body.lean ====
/-
  One device's body, stepped effect by effect from the ghost state the launch deals it: the three signals hand the
  three other members of the group the rows of this device's result they will fill; the wait on the barrier
  brings this device the rows it fills in theirs; the local copy and the three remote copies pay their cells
  with the blocks at their final contents; the seven waits bring back the four column blocks of the argument and
  the four groups of rows of the result, which rejoin into the two arrays.
-/
import proofs.«900408_g7700000000000409_dist_a2a_v7x_xyz2x4x4_z_m256_n256_f32_1_alg».proof.Proof.Data
import proofs.«900408_g7700000000000409_dist_a2a_v7x_xyz2x4x4_z_m256_n256_f32_1_alg».proof.Proof.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed semaphore views are the cells' semaphores -/

omit [FloatOps F] in
theorem snd0_eq : ((SemArray.slice cc0_scratch0 (Rect.unit (s := S3) ![0] S1.size Facts₀.inb_S3_S1_0)).squeeze S_ Facts₀.squeezes_S1_S_).sem = sndS 0 := rfl
omit [FloatOps F] in
theorem snd1_eq : ((SemArray.slice cc0_scratch0 (Rect.unit (s := S3) ![1] S1.size Facts₀.inb_S3_S1_1)).squeeze S_ Facts₀.squeezes_S1_S_).sem = sndS 1 := rfl
omit [FloatOps F] in
theorem snd2_eq : ((SemArray.slice cc0_scratch0 (Rect.unit (s := S3) ![2] S1.size Facts₀.inb_S3_S1_2)).squeeze S_ Facts₀.squeezes_S1_S_).sem = sndS 2 := rfl
omit [FloatOps F] in
theorem rcv0_eq : ((SemArray.slice cc0_scratch1 (Rect.unit (s := S3) ![0] S1.size Facts₀.inb_S3_S1_0)).squeeze S_ Facts₀.squeezes_S1_S_).sem = rcvS 0 := rfl
omit [FloatOps F] in
theorem rcv1_eq : ((SemArray.slice cc0_scratch1 (Rect.unit (s := S3) ![1] S1.size Facts₀.inb_S3_S1_1)).squeeze S_ Facts₀.squeezes_S1_S_).sem = rcvS 1 := rfl
omit [FloatOps F] in
theorem rcv2_eq : ((SemArray.slice cc0_scratch1 (Rect.unit (s := S3) ![2] S1.size Facts₀.inb_S3_S1_2)).squeeze S_ Facts₀.squeezes_S1_S_).sem = rcvS 2 := rfl
omit [FloatOps F] in
theorem loc_eq : (SemArray.sem cc0_scratch2) = locS := rfl

/-! ## An array held whole is held by its four blocks -/

omit [FloatOps F] in
theorem pts_split4 {ℓ : Loc nD τ sig} (A B C D : Finset (Idx ℓ)) (q : PosShare TreeShare) (f : Buf (Elt F) ℓ)
    (hc : (Finset.univ : Finset (Idx ℓ)) = A ∪ (B ∪ (C ∪ D))) (hA : Disjoint A (B ∪ (C ∪ D))) (hB : Disjoint B (C ∪ D)) (hC : Disjoint C D) :
    (ℓ ↦{q} f : sProp 𝕄) ⊣⊢ iprop((ℓ ↦[A]{q} f) ∗ (ℓ ↦[B]{q} f) ∗ (ℓ ↦[C]{q} f) ∗ (ℓ ↦[D]{q} f)) := by
  rw [hc]
  exact (Region.is_union hA).trans (sep_congr_right ((Region.is_union hB).trans (sep_congr_right (Region.is_union hC))))

theorem tgt_mod_ne (c : Dev nD) (j : Fin 3) : c.val % 4 ≠ (tgt c j).val % 4 := by rw [tgt_mod]; have := j.isLt; omega
theorem tgt_mod_ne' (c : Dev nD) (j j' : Fin 3) (h : j ≠ j') : (tgt c j).val % 4 ≠ (tgt c j').val % 4 := by
  rw [tgt_mod, tgt_mod]; have := j.isLt; have := j'.isLt; have : j.val ≠ j'.val := fun e => h (Fin.ext e); omega

omit [FloatOps F] in
/-- The result array of `c`, whole, is its own rows and the rows of the three others. -/
theorem out_split (c : Dev nD) (f : Buf (Elt F) ((c : Thread nD τ).loc main_v1)) :
    (outPts c f : sProp 𝕄) ⊣⊢ iprop(oPts c c f ∗ oPts c (tgt c 0) f ∗ oPts c (tgt c 1) f ∗ oPts c (tgt c 2) f) := by
  unfold outPts oPts
  exact pts_split4 _ _ _ _ fullShare f (oS_cover c)
    (Finset.disjoint_union_right.mpr ⟨oS_disj _ _ (tgt_mod_ne c 0), Finset.disjoint_union_right.mpr ⟨oS_disj _ _ (tgt_mod_ne c 1), oS_disj _ _ (tgt_mod_ne c 2)⟩⟩)
    (Finset.disjoint_union_right.mpr ⟨oS_disj _ _ (tgt_mod_ne' c 0 1 (by decide)), oS_disj _ _ (tgt_mod_ne' c 0 2 (by decide))⟩)
    (oS_disj _ _ (tgt_mod_ne' c 1 2 (by decide)))

omit [FloatOps F] in
/-- The argument block of `c`, whole, is the column block it keeps and the three it sends. -/
theorem arg_split (c : Dev nD) :
    (argPts m c : sProp 𝕄) ⊣⊢ iprop(aLPts m c ∗ aRPts m c 0 ∗ aRPts m c 1 ∗ aRPts m c 2) := by
  unfold argPts aLPts aRPts
  exact pts_split4 _ _ _ _ fullShare (X m c) (aS_cover c)
    (Finset.disjoint_union_right.mpr ⟨aL_aR_disj c 0, Finset.disjoint_union_right.mpr ⟨aL_aR_disj c 1, aL_aR_disj c 2⟩⟩)
    (Finset.disjoint_union_right.mpr ⟨aR_aR_disj c 0 1 (by decide), aR_aR_disj c 0 2 (by decide)⟩)
    (aR_aR_disj c 1 2 (by decide))

/-! ## The steps that address another device -/

/-- Signal `j`, to `n = tgt c j`: it pays duty `j` of that device's barrier cell with the rows of `c`'s result that device
    will fill. -/
theorem wp_sig (c n : Dev nD) (j : Fin 3) (hn : n = tgt c j) (κ : ℕ) (O : CellTallies nD τ sig Unit) (W : Waits sig Unit)
    {α : Type} {Q : α → sProp 𝕄} {k : PUnit → Prog (TpuEff nD τ sig (Elt F) Λ₀ .tc) α}
    (f : Buf (Elt F) ((oS (tgt c j)).view.loc (c : Thread nD τ))) :
    iprop(cellInv ER (a2aRd m) κ (barCell (tgt c j)) ∗ owes (c : Thread nD τ) (O + tallyAt (barCell (tgt c j)) () 1) W
        ∗ dutyTok ER (barCell (tgt c j)) 0 j ∗ oPts c (tgt c j) f ∗ reached ER (barCell (tgt c j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  refine (sep_mono_right (sep_mono_right (sep_mono_right (sep_mono_left ?_)))).trans
    (Rounds.wp_signal 𝒱₀ ER (a2aRd m) (c : Thread nD τ) none (dst := (tgt c j : Thread nD τ)) (κ := κ) (d := j)
      (by rw [duties_bar]; exact Finset.mem_univ _) ((amount_bar m (tgt c j) j).trans (by decide)) () O rfl)
  rw [payload_bar]; unfold barPay; rw [tgt_tgt_rev]
  iintro H; iexists f; iexact H

/-- Remote copy `j`, to `n = tgt c j`: it pays the duty of `c`'s send cell `j` with the column block it read and the
    duty of that device's receive cell `j` with `c`'s rows of that device's result, at their final contents. -/
theorem wp_snd (c n : Dev nD) (j : Fin 3) (hn : n = tgt c j) (κ₁ κ₂ : ℕ) (O₀ O : CellTallies nD τ sig Unit)
    (hO : O₀ = O + tallyAt (rcvCell (tgt c j) j) () N) (W : Waits sig Unit)
    {hsc : (oS c : Memref sig (Dev.tc n : Thread nD τ).2.kind .hbm S256x256 .f32).view.ref.isScScratch = false}
    {hsrc : (aR c j : Memref sig .tc .hbm S256x256 .f32).view.WordExact} {hdst : (oS c : Memref sig .tc .hbm S256x256 .f32).view.WordExact}
    {hsem : DmaTarget.Typed .hbm (.dma (rcvS j)) (.remote (Dev.tc n : Thread nD τ) (oS c : Memref sig .tc .hbm S256x256 .f32) (.dma (sndS j)) hsc)}
    {α : Type} {Q : α → sProp 𝕄} {k : PUnit → Prog (TpuEff nD τ sig (Elt F) Λ₀ .tc) α}
    (fd : Buf (Elt F) ((oS c).view.loc ((tgt c j : Dev nD) : Thread nD τ))) :
    iprop(cellInv ER (a2aRd m) κ₁ (sndCell c j) ∗ cellInv ER (a2aRd m) κ₂ (rcvCell (tgt c j) j)
        ∗ aRPts m c j ∗ oPts (tgt c j) c fd
        ∗ owes (c : Thread nD τ) O₀ W
        ∗ dutyTok ER (sndCell c j) 0 0 ∗ reached ER (sndCell c j) 0
        ∗ dutyTok ER (rcvCell (tgt c j) j) 0 0 ∗ reached ER (rcvCell (tgt c j) j) 0)
      ⊢ iprop(((cred (tallyAt (sndCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aR c j) (.remote (Dev.tc n : Thread nD τ) (oS c) (.dma (sndS j)) hsc) (.dma (rcvS j)) hsrc hdst hsem) k) Q) := by
  subst hn
  unfold aRPts oPts
  exact Rounds.wp_send_pointsTo 𝒱₀ ER (a2aRd m) (c : Thread nD τ) none (c' := (tgt c j : Thread nD τ)) (src := aR c j) (dst := oS c)
    (q := fullShare) (fs := X m c) (κ₁ := κ₁) (κ₂ := κ₂)
    (r₁ := 0) (r₂ := 0) (d₁ := 0) (d₂ := 0) (fd := fd)
    (by rw [duties_snd]; exact Finset.mem_singleton_self _) (by rw [duties_rcv]; exact Finset.mem_singleton_self _)
    () () N rfl (amount_snd m c j 0) (amount_rcv m (tgt c j) j 0) O hO (W := W)
    (by rw [payload_snd]; unfold sndPay aRPts; exact BI.Entails.refl _)
    (by rw [payload_rcv]; unfold rcvPay oPts; rw [tgt_tgt_rev]; exact Entails.of_eq (Region.is_congr (landed_rem m c j fd)))

/-! ## The body -/

section Body

variable (K : Dev nD × Fin 8 → ℕ)

def bodyPre (c : Dev nD) : sProp 𝕄 :=
  iprop(ghost m K c ∗ creds c ∗ levAts L lv ∗ argPts m c ∗ (∃ f, outPts c f) ∗ (dats m 0 c).owesAt () t₀.castSucc)

def bodyPost (c : Dev nD) : sProp 𝕄 :=
  iprop(Φ₁ m c ∗ (dats m 0 c).owesAt () t₀.succ)

set_option maxHeartbeats 1600000 in
set_option maxRecDepth 8000 in
/-- The body, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs poss rchd payToks creds
  iintro ⟨⟨⟨⟨#HIbar, ⟨#HIs0, #HIs1, #HIs2⟩, ⟨#HIr0, #HIr1, #HIr2⟩, #HIloc, ⟨#HIb0, #HIb1, #HIb2⟩, ⟨#HIv0, #HIv1, #HIv2⟩⟩,
      ⟨HatB, ⟨HatS0, HatS1, HatS2⟩, ⟨HatR0, HatR1, HatR2⟩, HatL⟩,
      ⟨⟨#HrB0, #HrB1, #HrB2⟩, ⟨#HrV0, #HrV1, #HrV2⟩, ⟨#HrS0, #HrS1, #HrS2⟩, #HrL⟩,
      ⟨⟨HtB0, HtB1, HtB2⟩, ⟨HtV0, HtV1, HtV2⟩, ⟨HtS0, HtS1, HtS2⟩, HtL⟩⟩,
    ⟨HcB, HcR0, HcR1, HcR2⟩, #Hlev, Harg, ⟨%f0, Hout⟩, Ho⟩, Hk⟩
  unfold Dat.owesAt Pipeline.owesWithin
  icases Ho with ⟨%W, %hW, HO⟩
  rw [show (dats m 0 c).owed t₀.castSucc = O₀ c from rfl]
  -- the two arrays by their blocks
  ihave Hos := (out_split c f0).1 $$ Hout
  icases Hos with ⟨HoC, Ho0, Ho1, Ho2⟩
  ihave Has := (arg_split m c).1 $$ Harg
  icases Has with ⟨HaL, Ha0, Ha1, Ha2⟩
  -- the three signals
  unfold O₀
  iapply (wp_sig m c _ 0 (dev1_eq c) (K (tgt c 0, 0)) (O₁ c) W f0) $$ [HO HtB0 Ho0]
  · isplitr; · iexact HIb0
    isplitl [HO]; · iexact HO
    isplitl [HtB0]; · iexact HtB0
    isplitl [Ho0]; · iexact Ho0
    iexact HrB0
  iintro HO
  unfold O₁
  iapply (wp_sig m c _ 1 (dev2_eq c) (K (tgt c 1, 0)) (O₂ c) W f0) $$ [HO HtB1 Ho1]
  · isplitr; · iexact HIb1
    isplitl [HO]; · iexact HO
    isplitl [HtB1]; · iexact HtB1
    isplitl [Ho1]; · iexact Ho1
    iexact HrB1
  iintro HO
  unfold O₂
  iapply (wp_sig m c _ 2 (dev3_eq c) (K (tgt c 2, 0)) (OR c) W f0) $$ [HO HtB2 Ho2]
  · isplitr; · iexact HIb2
    isplitl [HO]; · iexact HO
    isplitl [HtB2]; · iexact HtB2
    isplitl [Ho2]; · iexact Ho2
    iexact HrB2
  iintro HO
  -- the wait on its barrier cell, owing the three receive cells: the rows it fills in the three others' results
  iapply (Rounds.wp_wait_rest_token 𝒱₀ ER (a2aRd m) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%g2, Hd2⟩, ⟨%g1, Hd1⟩, ⟨%g0, Hd0⟩⟩

  -- the local copy: it pays the local cell with this device's own rows at their final contents and the block it read
  iapply (Rounds.wp_copy_pointsTo 𝒱₀ ER (a2aRd m) (c : Thread nD τ) none (src := aL c) (dst := oS c) (sem := .dma locS) (q := fullShare)
      (fs := X m c) (fd := f0) (κ := K (c, 7)) (r := 0) (d := 0) (by rw [duties_loc]; exact Finset.mem_singleton_self _) () N rfl (amount_loc m c 0)
      (by rw [payload_loc]; unfold locPay oPts aLPts
          exact sep_mono_left (Entails.of_eq (Region.is_congr (landed_loc m c f0))))) $$ [HaL HoC HtL]
  · isplitr; · iexact HIloc
    isplitl [HaL]; · unfold aLPts; iexact HaL
    isplitl [HoC]; · unfold oPts; iexact HoC
    isplitl [HtL]; · iexact HtL
    iexact HrL
  iintro HcL
  -- the three remote copies
  unfold OR
  iapply (wp_snd m c _ 0 (dev4_eq c) (K (c, 1)) (K (tgt c 0, 4)) _ (tallyAt (rcvCell (tgt c 2) 2) () N + tallyAt (rcvCell (tgt c 1) 1) () N) rfl _ g0) $$ [Ha0 Hd0 HO HtS0 HtV0]
  · isplitr; · iexact HIs0
    isplitr; · iexact HIv0
    isplitl [Ha0]; · iexact Ha0
    isplitl [Hd0]; · iexact Hd0
    isplitl [HO]; · iexact HO
    isplitl [HtS0]; · iexact HtS0
    isplitr; · iexact HrS0
    isplitl [HtV0]; · iexact HtV0
    iexact HrV0
  iintro ⟨HcS0, HO⟩
  iapply (wp_snd m c _ 1 (dev5_eq c) (K (c, 2)) (K (tgt c 1, 5)) _ (tallyAt (rcvCell (tgt c 2) 2) () N) rfl _ g1) $$ [Ha1 Hd1 HO HtS1 HtV1]
  · isplitr; · iexact HIs1
    isplitr; · iexact HIv1
    isplitl [Ha1]; · iexact Ha1
    isplitl [Hd1]; · iexact Hd1
    isplitl [HO]; · iexact HO
    isplitl [HtS1]; · iexact HtS1
    isplitr; · iexact HrS1
    isplitl [HtV1]; · iexact HtV1
    iexact HrV1
  iintro ⟨HcS1, HO⟩
  iapply (wp_snd m c _ 2 (dev6_eq c) (K (c, 3)) (K (tgt c 2, 6)) _ (0) (by rw [zero_add]) _ g2) $$ [Ha2 Hd2 HO HtS2 HtV2]
  · isplitr; · iexact HIs2
    isplitr; · iexact HIv2
    isplitl [Ha2]; · iexact Ha2
    isplitl [Hd2]; · iexact Hd2
    isplitl [HO]; · iexact HO
    isplitl [HtS2]; · iexact HtS2
    isplitr; · iexact HrS2
    isplitl [HtV2]; · iexact HtV2
    iexact HrV2
  iintro ⟨HcS2, HO⟩
  -- the seven waits
  iapply (Rounds.wp_wait_rest_token 𝒱₀ ER (a2aRd m) (c : Thread nD τ) none (κ := K (c, 7))
      (wpE_waitDma2_eq 𝒱₀ (c : Thread nD τ) none Set.univ) (Set.mem_univ _) () (O := 0) (R := 0) (m := 0) (T := ∅)
      (by rw [Nat.zero_add]; exact (expect_loc m c).symm)) $$ [HcL HO HatL]
  · isplitr; · iexact HIloc
    isplitl [HcL]; · iexact HcL
    isplitl [HO]; · iexact HO
    isplitr; · rw [MayWait_zero]; iempintro
    iexact HatL
  iintro ⟨HO, HatL, -, HpL⟩
  iapply (Rounds.wp_wait_rest_token 𝒱₀ ER (a2aRd m) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_snd m c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, HpS0⟩
  iapply (Rounds.wp_wait_rest_token 𝒱₀ ER (a2aRd m) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_rcv m c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, HpR0⟩
  iapply (Rounds.wp_wait_rest_token 𝒱₀ ER (a2aRd m) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_snd m c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, HpS1⟩
  iapply (Rounds.wp_wait_rest_token 𝒱₀ ER (a2aRd m) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_rcv m c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, HpR1⟩
  iapply (Rounds.wp_wait_rest_token 𝒱₀ ER (a2aRd m) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_snd m c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, HpS2⟩
  iapply (Rounds.wp_wait_rest_token 𝒱₀ ER (a2aRd m) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_rcv m c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, HpR2⟩

  -- what the seven waits brought back
  rw [loc_eq, snd0_eq, snd1_eq, snd2_eq, rcv0_eq, rcv1_eq, rcv2_eq]
  ihave HpL := (Entails.of_eq (rest_loc m c)) $$ HpL
  unfold locPay
  icases HpL with ⟨HoC, HaL⟩
  ihave Ha0 := (Entails.of_eq ((rest_snd m c 0).trans (show sndPay m c 0 = aRPts m c 0 from rfl))) $$ HpS0
  ihave Ha1 := (Entails.of_eq ((rest_snd m c 1).trans (show sndPay m c 1 = aRPts m c 1 from rfl))) $$ HpS1
  ihave Ha2 := (Entails.of_eq ((rest_snd m c 2).trans (show sndPay m c 2 = aRPts m c 2 from rfl))) $$ HpS2
  ihave Hr0 := (Entails.of_eq ((rest_rcv m c 0).trans (show rcvPay m c 0 = oPts c (tgt c 2) (outFinal m c) from rfl))) $$ HpR0
  ihave Hr1 := (Entails.of_eq ((rest_rcv m c 1).trans (show rcvPay m c 1 = oPts c (tgt c 1) (outFinal m c) from rfl))) $$ HpR1
  ihave Hr2 := (Entails.of_eq ((rest_rcv m c 2).trans (show rcvPay m c 2 = oPts c (tgt c 0) (outFinal m c) from rfl))) $$ HpR2
  -- the seven own cells close: their counters at zero are the core's again
  imod (Rounds.cell_close ER (a2aRd m) (Set.mem_univ (K (c, 1))) (fun h => h) (R := 0 + 1) (duties_later m (sndCell c 0))) $$ [HatS0] with HzS0
  · isplitr; · iexact HIs0
    iexact HatS0
  imod (Rounds.cell_close ER (a2aRd m) (Set.mem_univ (K (c, 2))) (fun h => h) (R := 0 + 1) (duties_later m (sndCell c 1))) $$ [HatS1] with HzS1
  · isplitr; · iexact HIs1
    iexact HatS1
  imod (Rounds.cell_close ER (a2aRd m) (Set.mem_univ (K (c, 3))) (fun h => h) (R := 0 + 1) (duties_later m (sndCell c 2))) $$ [HatS2] with HzS2
  · isplitr; · iexact HIs2
    iexact HatS2
  imod (Rounds.cell_close ER (a2aRd m) (Set.mem_univ (K (c, 4))) (fun h => h) (R := 0 + 1) (duties_later m (rcvCell c 0))) $$ [HatR0] with HzR0
  · isplitr; · iexact HIr0
    iexact HatR0
  imod (Rounds.cell_close ER (a2aRd m) (Set.mem_univ (K (c, 5))) (fun h => h) (R := 0 + 1) (duties_later m (rcvCell c 1))) $$ [HatR1] with HzR1
  · isplitr; · iexact HIr1
    iexact HatR1
  imod (Rounds.cell_close ER (a2aRd m) (Set.mem_univ (K (c, 6))) (fun h => h) (R := 0 + 1) (duties_later m (rcvCell c 2))) $$ [HatR2] with HzR2
  · isplitr; · iexact HIr2
    iexact HatR2
  imod (Rounds.cell_close ER (a2aRd m) (Set.mem_univ (K (c, 7))) (fun h => h) (R := 0 + 1) (duties_later m (locCell c))) $$ [HatL] with HzL
  · isplitr; · iexact HIloc
    iexact HatL
  rw [wp_ret]; imodintro
  iapply Hk
  unfold bodyPost Φ₁ zeros Dat.owesAt Pipeline.owesWithin
  rw [show (dats m 0 c).owed t₀.succ = 0 from rfl]
  isplitr [HO]
  · isplitl [HaL Ha0 Ha1 Ha2]
    · iapply (arg_split m c).2
      isplitl [HaL]; · iexact HaL
      isplitl [Ha0]; · iexact Ha0
      isplitl [Ha1]; · iexact Ha1
      iexact Ha2
    isplitl [HoC Hr0 Hr1 Hr2]
    · iapply (out_split c (outFinal m c)).2
      isplitl [HoC]; · iexact HoC
      isplitl [Hr2]; · iexact Hr2
      isplitl [Hr1]; · iexact Hr1
      iexact Hr0
    · isplitl [HzS0 HzS1 HzS2]
      · isplitl [HzS0]; · iexact HzS0
        isplitl [HzS1]; · iexact HzS1
        iexact HzS2
      isplitl [HzR0 HzR1 HzR2]
      · isplitl [HzR0]; · iexact HzR0
        isplitl [HzR1]; · iexact HzR1
        iexact HzR2
      iexact HzL
  · iexists (insert (SemLoc.dma (rcvS 2), ()) (insert (SemLoc.dma (sndS 2), ()) (insert (SemLoc.dma (rcvS 1), ()) (insert (SemLoc.dma (sndS 1), ())
      (insert (SemLoc.dma (rcvS 0), ()) (insert (SemLoc.dma (sndS 0), ()) (insert (SemLoc.dma locS, ()) (insert (SemLoc.reg barS, ()) W))))))))
    isplitr; · ipureintro; exact fun _ _ => Or.inl trivial
    iexact HO

/-- The library's body obligation on core `c`. -/
theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ bigSep (Finset.univ : Finset (Fin cfg0.W)) _) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2)
    (fun _ => iprop(Φ₁ m c ∗ (dats m 0 c).owesAt () t₀.succ ∗ bigSep (Finset.univ : Finset (Fin cfg0.W)) _))
  unfold Φ₀ start
  iintro ⟨⟨⟨⟨%K, Hg⟩, Hcr, Hlev⟩, Harg, Hout⟩, Ho, -⟩
  iapply (sound_body m K c _)
  unfold bodyPre bodyPost
  isplitl
  · isplitl [Hg]; · iexact Hg
    isplitl [Hcr]; · iexact Hcr
    isplitl [Hlev]; · iexact Hlev
    isplitl [Harg]; · iexact Harg
    isplitl [Hout]; · iexact Hout
    iexact Ho
  · iintro ⟨HΦ, HO⟩
    isplitl [HΦ]; · iexact HΦ
    isplitl [HO]; · iexact HO
    rw [show (Finset.univ : Finset (Fin cfg0.W)) = ∅ from rfl, bigSep_empty]
    iempintro

end Body

/-- info: 'Cert.KernelIdeal.A2A.body_obligation' depends on axioms: [propext, Classical.choice, Quot.sound] -/
#guard_msgs in #print axioms body_obligation

end Cert.KernelIdeal.A2A

end
-- ==== Proof.Launch.lean ====
/-
  The launch of the all-to-all on the 32 devices. Every device has eight cells (its barrier semaphore and its seven
  DMA semaphores); the launch element funds round 0 of each and mints the ten duty tokens of a device's own cells.
  The barrier cell's token of duty `d` and the receive cell `j`'s token travel to the group member that pays them
  (`tgt c (2 - d)`, `tgt c (2 - j)`); the send and local tokens stay. Each device is owed three units on its barrier
  cell and a block's credit on each receive cell, one summand from each of the three others of its group.
  The two arrays travel whole through the launch; at the end they are read against the memory.
-/
import proofs.«900408_g7700000000000409_dist_a2a_v7x_xyz2x4x4_z_m256_n256_f32_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := w.elim0

theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- All the cells of the protocol: eight a device. -/
def a2aCells : Finset (GSem nD τ sig) := Finset.univ.map ⟨kcell, kcell_injective⟩

/-- A device's own cells' duty tokens as minted: its barrier cell's three, one for each send cell, each receive cell
    and the local cell. -/
abbrev tokKey : Fin 10 → SemLoc sig × Fin 3 := fun
  | 0 => (.reg barS, 0) | 1 => (.reg barS, 1) | 2 => (.reg barS, 2)
  | 3 => (.dma (sndS 0), 0) | 4 => (.dma (sndS 1), 0) | 5 => (.dma (sndS 2), 0)
  | 6 => (.dma (rcvS 0), 0) | 7 => (.dma (rcvS 1), 0) | 8 => (.dma (rcvS 2), 0)
  | 9 => (.dma locS, 0)
abbrev tokOf (cj : Dev nD × Fin 10) : GSem nD τ sig × ℕ × Fin 3 := (((cj.1 : Thread nD τ), (tokKey cj.2).1), 0, (tokKey cj.2).2)
theorem tokKey_injective : ∀ j j' : Fin 10, tokKey j = tokKey j' → j = j' := by decide
theorem tokOf_injective : Function.Injective (tokOf : Dev nD × Fin 10 → GSem nD τ sig × ℕ × Fin 3) := by
  rintro ⟨c, j⟩ ⟨c', j'⟩ h
  have h1 : c = c' := congrArg (fun x : GSem nD τ sig × ℕ × Fin 3 => x.1.1.1) h
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_injective j j' h2]
def a2aToks : Finset (GSem nD τ sig × ℕ × Fin 3) := Finset.univ.map ⟨tokOf, tokOf_injective⟩

/-- The launch element: the pipeline library's (no staging cell) and the protocol's. -/
def u₀ : UU :=
  (initOf (Pipeline.cells cfgs cellOf_inj) (Pipeline.launchToks cfgs cellOf_inj), initOf a2aCells a2aToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sndCell c 0) 0 0 ∗ dutyTok ER (sndCell c 1) 0 0 ∗ dutyTok ER (sndCell c 2) 0 0
    ∗ dutyTok ER (rcvCell c 0) 0 0 ∗ dutyTok ER (rcvCell c 1) 0 0 ∗ dutyTok ER (rcvCell c 2) 0 0
    ∗ dutyTok ER (locCell c) 0 0)

/-- What the launch element deals device `c`. -/
def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_fin10]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The seven DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0
        ∗ semVal (rcvCell c 0) 0 ∗ semVal (rcvCell c 1) 0 ∗ semVal (rcvCell c 2) 0 ∗ semVal (locCell c) 0) := by
  rw [Pipeline.ownSems0_eq_of_list c osem [0, 1, 2, 3, 4, 5, 6] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨⟨H1, H2, H3, H4, H5, H6, H7⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  iexact H7

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names `K`, and that round 0 of every cell is reached. -/
def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

instance records_persistent (K : Dev nD × Fin 8 → ℕ) : BI.Persistent (records m K) := by unfold records; infer_instance

omit [FloatOps F] in
theorem inv_at (K : Dev nD × Fin 8 → ℕ) (ck : Dev nD × Fin 8) :
    (bigSep Finset.univ fun ck : Dev nD × Fin 8 => (cellInv ER (a2aRd m) (K ck) (kcell ck) : sProp 𝕄)) ⊢ cellInv ER (a2aRd m) (K ck) (kcell ck) :=
  bigSep_elim (Finset.mem_univ ck)
omit [FloatOps F] in
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

omit [FloatOps F] in
theorem ghost_intro (K : Dev nD × Fin 8 → ℕ) (c : Dev nD) : iprop(records m K ∗ linear c) ⊢ G' m c := by
  unfold records linear G' ghost invs rchd
  iintro ⟨⟨#HI, #HR⟩, Hpos, Htok⟩
  iexists K
  isplitr
  · isplitr; · iapply (inv_at m K (c, 0)); iexact HI
    isplitr
    · isplitr; · iapply (inv_at m K (c, 1)); iexact HI
      isplitr; · iapply (inv_at m K (c, 2)); iexact HI
      iapply (inv_at m K (c, 3)); iexact HI
    isplitr
    · isplitr; · iapply (inv_at m K (c, 4)); iexact HI
      isplitr; · iapply (inv_at m K (c, 5)); iexact HI
      iapply (inv_at m K (c, 6)); iexact HI
    isplitr; · iapply (inv_at m K (c, 7)); iexact HI
    isplitr
    · isplitr; · iapply (inv_at m K (tgt c 0, 0)); iexact HI
      isplitr; · iapply (inv_at m K (tgt c 1, 0)); iexact HI
      iapply (inv_at m K (tgt c 2, 0)); iexact HI
    isplitr; · iapply (inv_at m K (tgt c 0, 4)); iexact HI
    isplitr; · iapply (inv_at m K (tgt c 1, 5)); iexact HI
    iapply (inv_at m K (tgt c 2, 6)); iexact HI
  isplitl [Hpos]; · iexact Hpos
  isplitr
  · isplitr
    · isplitr; · iapply (reached_at (F := F) (tgt c 0, 0)); iexact HR
      isplitr; · iapply (reached_at (F := F) (tgt c 1, 0)); iexact HR
      iapply (reached_at (F := F) (tgt c 2, 0)); iexact HR
    isplitr
    · isplitr; · iapply (reached_at (F := F) (tgt c 0, 4)); iexact HR
      isplitr; · iapply (reached_at (F := F) (tgt c 1, 5)); iexact HR
      iapply (reached_at (F := F) (tgt c 2, 6)); iexact HR
    isplitr
    · isplitr; · iapply (reached_at (F := F) (c, 1)); iexact HR
      isplitr; · iapply (reached_at (F := F) (c, 2)); iexact HR
      iapply (reached_at (F := F) (c, 3)); iexact HR
    iapply (reached_at (F := F) (c, 7)); iexact HR
  iexact Htok

omit [FloatOps F] in
/-- The tokens dealt around each group: the barrier cell's token of duty `d` to the member that pays it, `d + 1` steps
    back; the receive cell `j`'s token to the member `j + 1` steps back; the send and local tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (step 0) (fun c : Dev nD => (dutyTok ER (barCell c) 0 0 : sProp 𝕄)),
    bigSep_univ_equiv (step 1) (fun c : Dev nD => (dutyTok ER (barCell c) 0 1 : sProp 𝕄)),
    bigSep_univ_equiv (step 2) (fun c : Dev nD => (dutyTok ER (barCell c) 0 2 : sProp 𝕄)),
    bigSep_univ_equiv (step 0) (fun c : Dev nD => (dutyTok ER (rcvCell c 0) 0 0 : sProp 𝕄)),
    bigSep_univ_equiv (step 1) (fun c : Dev nD => (dutyTok ER (rcvCell c 1) 0 0 : sProp 𝕄)),
    bigSep_univ_equiv (step 2) (fun c : Dev nD => (dutyTok ER (rcvCell c 2) 0 0 : sProp 𝕄))]
  iintro ⟨B0, B1, B2, S0, S1, S2, R0, R1, R2, HL⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0 S1 S2]
  · isplitl [S0]; · iexact S0
    isplitl [S1]; · iexact S1
    iexact S2
  iexact HL

omit [FloatOps F] in
theorem poss_intro (c : Dev nD) : (bigSep Finset.univ fun k : Fin 8 => (atPos ER (kcell (c, k)) 0 ∅ 0 : sProp 𝕄)) ⊢ poss c := by
  rw [bigSep_fin8]; unfold poss
  iintro ⟨H0, H1, H2, H3, H4, H5, H6, H7⟩
  isplitl [H0]; · iexact H0
  isplitl [H1 H2 H3]
  · isplitl [H1]; · iexact H1
    isplitl [H2]; · iexact H2
    iexact H3
  isplitl [H4 H5 H6]
  · isplitl [H4]; · iexact H4
    isplitl [H5]; · iexact H5
    iexact H6
  iexact H7

omit [FloatOps F] in
theorem poss_all : (bigSep Finset.univ fun c : Dev nD => bigSep Finset.univ fun k : Fin 8 => (atPos ER (kcell (c, k)) 0 ∅ 0 : sProp 𝕄))
    ⊢ bigSep Finset.univ fun c : Dev nD => (poss c : sProp 𝕄) :=
  bigSep_mono fun c _ => poss_intro c

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent' (R := records m K) fun c _ => ghost_intro m K c)
  isplitr
  · unfold records; isplitl; · iexact HI
    iexact HR
  · iapply ((Entails.of_eq (bigSep_sep' Finset.univ (fun c : Dev nD => (poss c : sProp 𝕄)) payToks).symm).trans
      (bigSep_mono fun c _ => show _ ⊢ linear c from BI.Entails.refl _))
    isplitl [Hat]
    · iapply (poss_all (F := F)); iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem rcv_eq_iff {a b : Dev nD} {j : Fin 3} : Iff (rcvCell a j = rcvCell b j) (a = b) :=
  ⟨fun h => Fin.ext (congrArg (fun g : GSem nD τ sig => g.1.1.val) h), fun h => h ▸ rfl⟩
omit [FloatOps F] in
theorem rcv_ne_bar {a b : Dev nD} {j : Fin 3} : rcvCell a j ≠ barCell b := fun h => by
  have := congrArg Prod.snd h; cases this
omit [FloatOps F] in
theorem rcv_ne_rcv {a b : Dev nD} {j j' : Fin 3} (hj : j ≠ j') : rcvCell a j ≠ rcvCell b j' := fun h => by
  have h2 : (SemLoc.dma (rcvS j) : SemLoc sig) = .dma (rcvS j') := congrArg Prod.snd h
  have h3 : (rcvS j).val = (rcvS j').val := by injection h2 with h2; rw [h2]
  exact hj (Fin.ext (by change 3 + j.val = 3 + j'.val at h3; omega))

theorem tgt_eq_iff (d c : Dev nD) (j : Fin 3) : Iff (tgt d j = c) (d = tgt c j.rev) :=
  ⟨fun h => by rw [← h, tgt_tgt_rev], fun h => by rw [h, tgt_rev_tgt]⟩

omit [FloatOps F] in
/-- What the signal `j` of device `d` owes device `c`'s barrier cell: a unit if `d` is `j + 1` steps before `c`. -/
theorem tally_bar (d c : Dev nD) (j : Fin 3) :
    (tallyAt (barCell (tgt d j)) () 1 : CellTallies nD τ sig Unit) (barCell c) () = if d = tgt c j.rev then 1 else 0 := by
  rw [tallyAt_apply]
  by_cases h : d = tgt c j.rev
  · subst h; rw [tgt_rev_tgt, if_pos ⟨rfl, rfl⟩, if_pos rfl]
  · rw [if_neg (fun h' => h ((tgt_eq_iff d c j).mp (bar_eq_iff.mp h'.1).symm)), if_neg h]
omit [FloatOps F] in
/-- What the copy `j` of device `d` owes device `c`'s receive cell `j`: a block's credit if `d` is `j + 1` steps before `c`. -/
theorem tally_rcv (d c : Dev nD) (j : Fin 3) :
    (tallyAt (rcvCell (tgt d j) j) () N : CellTallies nD τ sig Unit) (rcvCell c j) () = if d = tgt c j.rev then N else 0 := by
  rw [tallyAt_apply]
  by_cases h : d = tgt c j.rev
  · subst h; rw [tgt_rev_tgt, if_pos ⟨rfl, rfl⟩, if_pos rfl]
  · rw [if_neg (fun h' => h ((tgt_eq_iff d c j).mp (rcv_eq_iff.mp h'.1).symm)), if_neg h]

omit [FloatOps F] in
theorem owed_bar (d c : Dev nD) : O₀ d (barCell c) () =
    (if d = tgt c (2 : Fin 3).rev then 1 else 0) + (if d = tgt c (1 : Fin 3).rev then 1 else 0) + (if d = tgt c (0 : Fin 3).rev then 1 else 0) := by
  unfold O₀ O₁ O₂ OR
  simp only [Pi.add_apply, Finsupp.add_apply]
  rw [tally_bar, tally_bar, tally_bar, tallyAt_ne_cell (fun h => rcv_ne_bar h.symm), tallyAt_ne_cell (fun h => rcv_ne_bar h.symm),
    tallyAt_ne_cell (fun h => rcv_ne_bar h.symm)]
  simp only [Finsupp.zero_apply, Nat.zero_add]

omit [FloatOps F] in
theorem owed_rcv (d c : Dev nD) (j : Fin 3) : O₀ d (rcvCell c j) () = if d = tgt c j.rev then N else 0 := by
  unfold O₀ O₁ O₂ OR
  simp only [Pi.add_apply, Finsupp.add_apply]
  rw [tallyAt_ne_cell (g := barCell (tgt d 0)) rcv_ne_bar, tallyAt_ne_cell (g := barCell (tgt d 1)) rcv_ne_bar, tallyAt_ne_cell (g := barCell (tgt d 2)) rcv_ne_bar]
  fin_cases j
  · rw [tallyAt_ne_cell (g := rcvCell (tgt d 2) 2) (rcv_ne_rcv (by decide)), tallyAt_ne_cell (g := rcvCell (tgt d 1) 1) (rcv_ne_rcv (by decide))]
    simp only [Finsupp.zero_apply, Nat.zero_add, Nat.add_zero]
    exact tally_rcv d c 0
  · rw [tallyAt_ne_cell (g := rcvCell (tgt d 2) 2) (rcv_ne_rcv (by decide)), tallyAt_ne_cell (g := rcvCell (tgt d 0) 0) (rcv_ne_rcv (by decide))]
    simp only [Finsupp.zero_apply, Nat.zero_add, Nat.add_zero]
    exact tally_rcv d c 1
  · rw [tallyAt_ne_cell (g := rcvCell (tgt d 1) 1) (rcv_ne_rcv (by decide)), tallyAt_ne_cell (g := rcvCell (tgt d 0) 0) (rcv_ne_rcv (by decide))]
    simp only [Finsupp.zero_apply, Nat.zero_add, Nat.add_zero]
    exact tally_rcv d c 2

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (tgt c (2 : Fin 3).rev) fun _ => 1, Finset.sum_ite_eq' Finset.univ (tgt c (1 : Fin 3).rev) fun _ => 1,
    Finset.sum_ite_eq' Finset.univ (tgt c (0 : Fin 3).rev) fun _ => 1, if_pos (Finset.mem_univ _), if_pos (Finset.mem_univ _), if_pos (Finset.mem_univ _)]

omit [FloatOps F] in
theorem launch_rcv (c : Dev nD) (j : Fin 3) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (tgt c j.rev) fun _ => N,
    if_pos (Finset.mem_univ _)]

omit [FloatOps F] in
/-- The launch credit of a device: three units on its barrier cell, a block's credit on each receive cell. -/
theorem launch_creds (c : Dev nD) : (Pipeline.launchCred O₀ c : sProp 𝕄) ⊢ creds c := by
  unfold Pipeline.launchCred creds
  refine (bigSep_subset (t := [SemLoc.reg barS, SemLoc.dma (rcvS 0), SemLoc.dma (rcvS 1), SemLoc.dma (rcvS 2)].toFinset) (Finset.subset_univ _)).trans ?_
  rw [bigSep_eq_bigSepL_of_eq [SemLoc.reg barS, SemLoc.dma (rcvS 0), SemLoc.dma (rcvS 1), SemLoc.dma (rcvS 2)] rfl (by decide)]
  rw [← launch_bar, ← launch_rcv c 0, ← launch_rcv c 1, ← launch_rcv c 2]
  exact BI.Entails.refl _

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, Gen.unscopedRest0_eq]
  iintro ⟨⟨Ha, Ho⟩, Hlev, Hcr, -, HG⟩
  ihave Hc := (launch_creds (F := F) c) $$ Hcr
  imodintro
  unfold Φ₀ start G' argPts outPts X
  isplitl
  · isplitl [HG Hc Hlev]
    · isplitl [HG]; · iexact HG
      isplitl [Hc]; · iexact Hc
      iexact Hlev
    isplitl [Ha]; · iexact Ha
    iexists (m ((c : Thread nD τ).loc main_v1)); iexact Ho
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop(iprop(argPts m c ∗ outPts c (outFinal m c)) ∗ Pipeline.ownSems0 osem c ∗ Pipeline.scopedRest cfg0.spec c) := by
  rw [show (dats m 0 c).Φ (Fin.last cfg0.N) = Φ₁ m c from rfl, Gen.scopedRest0_eq, ownSems0_eq]
  unfold Φ₁ zeros
  iintro ⟨Ha, Ho, ⟨S0, S1, S2⟩, ⟨R0, R1, R2⟩, HL⟩
  isplitl [Ha Ho]
  · isplitl [Ha] <;> iassumption
  isplitl
  · isplitl [S0]; · iexact S0
    isplitl [S1]; · iexact S1
    isplitl [S2]; · iexact S2
    isplitl [R0]; · iexact R0
    isplitl [R1]; · iexact R1
    isplitl [R2]; · iexact R2
    iexact HL
  · iempintro

theorem waits (c : Dev nD) : (levAts L lv : sProp 𝕄) ⊢ Pipeline.cellsWaits cfgs (dats m) () 0 c :=
  Pipeline.cellsWaits_intro cfgs (dats m) () 0 c fun w s t => w.elim0

/-! ### The run -/

set_option maxRecDepth 8000 in
/-- At the compiled mesh of 32 devices, for any float values, from any memory with zero counters: every weakly fair
    execution of @main terminates, and every final state has each device's result array at `outFinal` and its
    argument unchanged — given the body's obligation from `Φ₀` to `Φ₁`. -/
theorem run_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c : Thread nD τ).loc main_v1) = outFinal m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := Φ₀ m) (Y := fun c => iprop(argPts m c ∗ outPts c (outFinal m c))) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold argPts outPts X
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KMesh.lean ====
/-
  The z-groups of the 2 × 4 × 4 mesh. Device `c` sits at (c / 16, c / 4 % 4, c % 4); the all-to-all runs inside
  the group of four devices that share the first two coordinates. `tgt c j` is the member of `c`'s group whose
  last coordinate is `(c % 4 + j + 1) % 4`: the device `c` signals j-th and sends its (j+1)-th remote block to.
  Going round by `j` and then by `2 - j` adds 4 to the last coordinate, so `tgt · (2 - j)` inverts `tgt · j`.
  The printed device chains and slice offsets are evaluated over the 32 devices once, here.
-/
import proofs.«900408_g7700000000000409_dist_a2a_v7x_xyz2x4x4_z_m256_n256_f32_1_alg».proof.Proof.Gen.Kernel

namespace Cert.Kernel.A2A

open Cert.Kernel Cert.Kernel.Gen
open Idealize.ShloMosaic

/-- The group member `j + 1` steps after `c` along the last mesh axis. -/
def tgt (c : Dev nD) (j : Fin 3) : Dev nD :=
  ⟨4 * (c.val / 4) + (c.val % 4 + j.val + 1) % 4, by have h : c.val < 32 := c.isLt; show _ < 32; omega⟩

/-- The group member whose last coordinate is `k`. -/
def zmem (c : Dev nD) (k : Fin 4) : Dev nD :=
  ⟨4 * (c.val / 4) + k.val, by have h : c.val < 32 := c.isLt; show _ < 32; omega⟩

theorem tgt_val (c : Dev nD) (j : Fin 3) : (tgt c j).val = 4 * (c.val / 4) + (c.val % 4 + j.val + 1) % 4 := rfl
theorem tgt_mod (c : Dev nD) (j : Fin 3) : (tgt c j).val % 4 = (c.val % 4 + j.val + 1) % 4 := by rw [tgt_val]; omega
theorem tgt_div (c : Dev nD) (j : Fin 3) : (tgt c j).val / 4 = c.val / 4 := by rw [tgt_val]; omega

theorem tgt_tgt_rev (c : Dev nD) (j : Fin 3) : tgt (tgt c j) j.rev = c := by revert c j; decide
theorem tgt_rev_tgt (c : Dev nD) (j : Fin 3) : tgt (tgt c j.rev) j = c := by revert c j; decide
theorem tgt_ne_self (c : Dev nD) (j : Fin 3) : tgt c j ≠ c := by revert c j; decide
theorem tgt_inj_right (c : Dev nD) (j j' : Fin 3) (h : tgt c j = tgt c j') : j = j' := by revert c j j'; decide

/-- Stepping by `j` is a permutation of the devices; its inverse steps by `2 - j`. -/
def step (j : Fin 3) : Dev nD ≃ Dev nD :=
  ⟨fun c => tgt c j, fun c => tgt c j.rev, fun c => tgt_tgt_rev c j, fun c => tgt_rev_tgt c j⟩

/-- The three signals go to the group members 1, 2, 3 steps on, and so do the three remote copies. -/
theorem dev1_eq (c : Dev nD) : (⟨k0_dev1 c, k0_dev1_lt c⟩ : Dev nD) = tgt c 0 := by revert c; decide +kernel
theorem dev2_eq (c : Dev nD) : (⟨k0_dev2 c, k0_dev2_lt c⟩ : Dev nD) = tgt c 1 := by revert c; decide +kernel
theorem dev3_eq (c : Dev nD) : (⟨k0_dev3 c, k0_dev3_lt c⟩ : Dev nD) = tgt c 2 := by revert c; decide +kernel
theorem dev4_eq (c : Dev nD) : (⟨k0_dev4 c, k0_dev4_lt c⟩ : Dev nD) = tgt c 0 := by revert c; decide +kernel
theorem dev5_eq (c : Dev nD) : (⟨k0_dev5 c, k0_dev5_lt c⟩ : Dev nD) = tgt c 1 := by revert c; decide +kernel
theorem dev6_eq (c : Dev nD) : (⟨k0_dev6 c, k0_dev6_lt c⟩ : Dev nD) = tgt c 2 := by revert c; decide +kernel

/-- The source columns of the (j+1)-th remote copy start at 256 times the destination's last coordinate. -/
theorem off3_eq (c : Dev nD) (j : Fin 3) :
    k0_off3 c (BitVec.ofNat 32 (1 + j.val)) = ![0, 256 * ((c.val % 4 + j.val + 1) % 4)] := by
  revert c j; decide +kernel

end Cert.Kernel.A2A
-- ==== Proof.KViews.lean ====
/-
  The buffers of the all-to-all and what they end up holding. Device `c` holds the block `X c` of 256 rows of
  the argument; it copies the column block `c % 4` into rows `256 (c % 4) …` of its own result and sends column
  block `k` to the group member at coordinate `k`, into the same rows of that member's result. So the result of
  `c` ends up with row block `k` holding column block `c % 4` of the argument block of the group member `k`:
  `outFinal`.
-/
import proofs.«900408_g7700000000000409_dist_a2a_v7x_xyz2x4x4_z_m256_n256_f32_1_alg».proof.Proof.KMesh
import Idealize.ShloMosaic.Lib.ValueIdx

noncomputable section

namespace Cert.Kernel.A2A

open Cert.Kernel Cert.Kernel.Gen
open Idealize.ShloMosaic Idealize.ShloMosaic.TcCoe

variable {F : FTy → Type} [FloatOps F]

/-! ## The memrefs -/

abbrev aM : Memref sig .tc .hbm S256x1024 .f32 := Memref.whole main_arg0
abbrev oM : Memref sig .tc .hbm S1024x256 .f32 := Memref.whole main_v1

/-- The 256 rows of a result array that device `p` fills, on whichever device of its group: rows `256 (p % 4) …`. -/
abbrev oS (p : Dev nD) : Memref sig .tc .hbm S256x256 .f32 :=
  oM.slice (Rect.unit (s := S1024x256) (k0_off1 p) S256x256.size (k0_off1_inb p)) (fun _ => rfl)
/-- The column block of its argument a device keeps: columns `256 (c % 4) …`. -/
abbrev aL (c : Dev nD) : Memref sig .tc .hbm S256x256 .f32 :=
  aM.slice (Rect.unit (s := S256x1024) (k0_off2 c) S256x256.size (k0_off2_inb c)) (fun _ => rfl)
/-- The column block it sends to `tgt c j`: columns `256 ((c % 4 + j + 1) % 4) …`. -/
abbrev aR (c : Dev nD) (j : Fin 3) : Memref sig .tc .hbm S256x256 .f32 :=
  aM.slice (Rect.unit (s := S256x1024) (k0_off3 c (BitVec.ofNat 32 (1 + j.val))) S256x256.size (k0_off3_inb c j)) (fun _ => rfl)

/-- What a transfer of one 256 × 256 block credits a DMA semaphore. -/
abbrev N : ℕ := (oS (0 : Dev nD)).view.dmaCredit
theorem N_pos : 0 < N := View.dmaCredit_pos _ (by decide)
theorem N_oS (p : Dev nD) : (oS p).view.dmaCredit = N := rfl
theorem N_aL (c : Dev nD) : (aL c).view.dmaCredit = N := rfl
theorem N_aR (c : Dev nD) (j : Fin 3) : (aR c j).view.dmaCredit = N := rfl

/-! ## Contents -/

variable (m : (ℓ : Loc nD τ sig) → Buf (Elt F) ℓ)

/-- Device `c`'s block of the argument, as launched. -/
def X (c : Dev nD) : Buf (Elt F) ((c : Thread nD τ).loc main_arg0) := m ((c : Thread nD τ).loc main_arg0)

/-- What device `c`'s result holds in the end: at row `i₀`, column `i₁`, entry `(i₀ % 256, 256 (c % 4) + i₁)` of the
    argument block of the group member whose last coordinate is `i₀ / 256`. -/
def outFinal (c : Dev nD) : Buf (Elt F) ((c : Thread nD τ).loc main_v1) := fun i =>
  X m (zmem c ⟨(i 0).val / 256, by have := (i 0).isLt; show _ < 4; change (i 0).val < 1024 at this; omega⟩)
    (ValueIdx.ix2 (⟨(i 0).val % 256, Nat.mod_lt _ (by decide)⟩ : Fin 256)
      (⟨256 * (c.val % 4) + (i 1).val, by have := (i 1).isLt; change (i 1).val < 256 at this; omega⟩ : Fin 1024))

end Cert.Kernel.A2A

end
-- ==== Proof.KSched.lean ====
/-
  The protocol of the all-to-all under the rounds discipline, one round per cell.
  Every device `c` has eight cells: the barrier semaphore (three duties of one unit: duty `d` is paid by the signal
  number `d` of the group member `tgt c (2 - d)`, whose `tgt · d` is `c`), three send cells and three receive cells
  (one duty each, of a block's credit) and the cell of its local copy (one duty).
  What a landing hands the waiter: a barrier signal from `p` hands `c` the 256 rows of `p`'s result that `c` will
  fill; the send cell `j` gives back the column block sent to `tgt c j`; the receive cell `j` gives the rows of `c`'s
  result that `tgt c (2 - j)` filled, holding their final contents; the local cell gives `c`'s own rows at their
  final contents and the column block it kept.
  A device owes, from launch, one barrier unit to each of the three others of its group and a block's credit to the
  receive cell `j` of `tgt c j`; it waits on its barrier below the receive cells it still owes (levels 1 and 2).
-/
import proofs.«900408_g7700000000000409_dist_a2a_v7x_xyz2x4x4_z_m256_n256_f32_1_alg».proof.Proof.KViews
import proofs.«900408_g7700000000000409_dist_a2a_v7x_xyz2x4x4_z_m256_n256_f32_1_alg».proof.Proof.Gen.Kernel.Skeleton
import proofs.«900408_g7700000000000409_dist_a2a_v7x_xyz2x4x4_z_m256_n256_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem
abbrev sndS (j : Fin 3) : DmaSem sig := ⟨j.val, by have := j.isLt; show j.val < 7; omega⟩
abbrev rcvS (j : Fin 3) : DmaSem sig := ⟨3 + j.val, by have := j.isLt; show 3 + j.val < 7; omega⟩
abbrev locS : DmaSem sig := ⟨6, by show 6 < 7; omega⟩

abbrev barCell (c : Dev nD) : GSem nD τ sig := ((c : Thread nD τ), .reg barS)
abbrev sndCell (c : Dev nD) (j : Fin 3) : GSem nD τ sig := ((c : Thread nD τ), .dma (sndS j))
abbrev rcvCell (c : Dev nD) (j : Fin 3) : GSem nD τ sig := ((c : Thread nD τ), .dma (rcvS j))
abbrev locCell (c : Dev nD) : GSem nD τ sig := ((c : Thread nD τ), .dma locS)

/-- The kernel's own (scoped) semaphores: the seven DMA semaphores. -/
abbrev osem : Fin 7 → SemLoc sig := fun i => .dma i
/-- All eight cells of a device: barrier, send 0–2, receive 0–2, local. -/
abbrev csem : Fin 8 → SemLoc sig := fun
  | 0 => .reg barS | 1 => .dma (sndS 0) | 2 => .dma (sndS 1) | 3 => .dma (sndS 2)
  | 4 => .dma (rcvS 0) | 5 => .dma (rcvS 1) | 6 => .dma (rcvS 2) | 7 => .dma locS
abbrev kcell (ck : Dev nD × Fin 8) : GSem nD τ sig := ((ck.1 : Thread nD τ), csem ck.2)

/-! ## What the cells hand over -/

/-- On device `c'`, the rows of its result that `p` fills, holding `f`. -/
def oPts (c' p : Dev nD) (f : Buf (Elt F) ((oS p).view.loc (c' : Thread nD τ))) : sProp 𝕄 :=
  (oS p).view.loc (c' : Thread nD τ) ↦[(oS p).view.set]{fullShare} f
/-- The column block `c` keeps, and the one it sends to `tgt c j`, as launched. -/
def aLPts (c : Dev nD) : sProp 𝕄 := (aL c).view.loc (c : Thread nD τ) ↦[(aL c).view.set]{fullShare} X m c
def aRPts (c : Dev nD) (j : Fin 3) : sProp 𝕄 := (aR c j).view.loc (c : Thread nD τ) ↦[(aR c j).view.set]{fullShare} X m c

def barPay (c : Dev nD) (d : Fin 3) : sProp 𝕄 := iprop(∃ f, oPts (tgt c d.rev) c f)
def sndPay (c : Dev nD) (j : Fin 3) : sProp 𝕄 := aRPts m c j
def rcvPay (c : Dev nD) (j : Fin 3) : sProp 𝕄 := oPts c (tgt c j.rev) (outFinal m c)
def locPay (c : Dev nD) : sProp 𝕄 := iprop(oPts c c (outFinal m c) ∗ aLPts m c)

omit [FloatOps F] in
instance oPts_storable (c' p : Dev nD) (f) : BI.Storable (upEmb : UEmb _ 𝕄) (oPts (F := F) c' p f) := by unfold oPts; infer_instance
omit [FloatOps F] in
instance aLPts_storable (c : Dev nD) : BI.Storable (upEmb : UEmb _ 𝕄) (aLPts (F := F) m c) := by unfold aLPts; infer_instance
omit [FloatOps F] in
instance aRPts_storable (c : Dev nD) (j : Fin 3) : BI.Storable (upEmb : UEmb _ 𝕄) (aRPts (F := F) m c j) := by unfold aRPts; infer_instance

/-! ## The schedule -/

/-- One round: a barrier cell has three duties of one unit, a DMA cell one duty of a block's credit. -/
def a2aRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma s =>
      if h : s.val < 3 then sndPay m g.1.1 ⟨s.val, h⟩
      else if h' : s.val < 6 then rcvPay m g.1.1 ⟨s.val - 3, by omega⟩
      else locPay m g.1.1
  amount_pos g _ _ _ := by
    rcases g with ⟨t, _ | _⟩
    · exact Nat.one_pos
    · exact N_pos

omit [FloatOps F] in
instance a2aRd_payload_storable (g : GSem nD τ sig) (r : ℕ) (d : Fin 3) :
    BI.Storable (upEmb : UEmb _ 𝕄) ((a2aRd (F := F) m).payload g r d) := by
  rcases g with ⟨t, s | s⟩
  · show BI.Storable upEmb (barPay t.1 d); unfold barPay; infer_instance
  · show BI.Storable upEmb (if h : s.val < 3 then sndPay m t.1 ⟨s.val, h⟩
      else if h' : s.val < 6 then rcvPay m t.1 ⟨s.val - 3, by omega⟩ else locPay m t.1)
    unfold sndPay rcvPay locPay
    (repeat' split) <;> infer_instance

section Sched
variable (c : Dev nD) (j : Fin 3)

omit [FloatOps F] in
theorem duties_bar : (a2aRd (F := F) m).duties (barCell c) 0 = Finset.univ := by dsimp only [a2aRd]; exact if_pos ⟨rfl, rfl⟩
omit [FloatOps F] in
theorem duties_snd : (a2aRd (F := F) m).duties (sndCell c j) 0 = {0} := by dsimp only [a2aRd]; exact if_pos ⟨rfl, rfl⟩
omit [FloatOps F] in
theorem duties_rcv : (a2aRd (F := F) m).duties (rcvCell c j) 0 = {0} := by dsimp only [a2aRd]; exact if_pos ⟨rfl, rfl⟩
omit [FloatOps F] in
theorem duties_loc : (a2aRd (F := F) m).duties (locCell c) 0 = {0} := by dsimp only [a2aRd]; exact if_pos ⟨rfl, rfl⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Fin 3) : (a2aRd (F := F) m).amount (barCell c) 0 d = 1 := rfl
omit [FloatOps F] in
theorem amount_snd (d : Fin 3) : (a2aRd (F := F) m).amount (sndCell c j) 0 d = N := rfl
omit [FloatOps F] in
theorem amount_rcv (d : Fin 3) : (a2aRd (F := F) m).amount (rcvCell c j) 0 d = N := rfl
omit [FloatOps F] in
theorem amount_loc (d : Fin 3) : (a2aRd (F := F) m).amount (locCell c) 0 d = N := rfl

omit [FloatOps F] in
theorem expect_bar : (a2aRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_snd : (a2aRd (F := F) m).expect (sndCell c j) 0 = N := by
  unfold Schedule.expect Schedule.amountOf; rw [duties_snd, Finset.sum_singleton, amount_snd]
omit [FloatOps F] in
theorem expect_rcv : (a2aRd (F := F) m).expect (rcvCell c j) 0 = N := by
  unfold Schedule.expect Schedule.amountOf; rw [duties_rcv, Finset.sum_singleton, amount_rcv]
omit [FloatOps F] in
theorem expect_loc : (a2aRd (F := F) m).expect (locCell c) 0 = N := by
  unfold Schedule.expect Schedule.amountOf; rw [duties_loc, Finset.sum_singleton, amount_loc]

omit [FloatOps F] in
theorem payload_bar (d : Fin 3) : (a2aRd (F := F) m).payload (barCell c) 0 d = barPay c d := rfl
omit [FloatOps F] in
theorem payload_snd (d : Fin 3) : (a2aRd (F := F) m).payload (sndCell c j) 0 d = sndPay m c j := by
  dsimp only [a2aRd]; rw [dif_pos j.isLt]
omit [FloatOps F] in
theorem payload_rcv (d : Fin 3) : (a2aRd (F := F) m).payload (rcvCell c j) 0 d = rcvPay m c j := by
  dsimp only [a2aRd]
  rw [dif_neg (by show ¬ (3 + j.val < 3); omega), dif_pos (by have := j.isLt; show 3 + j.val < 6; omega)]
  exact congrArg (rcvPay m c) (Fin.ext (by show 3 + j.val - 3 = j.val; omega))
omit [FloatOps F] in
theorem payload_loc (d : Fin 3) : (a2aRd (F := F) m).payload (locCell c) 0 d = locPay m c := by
  dsimp only [a2aRd]
  rw [dif_neg (by show ¬ (6 < 3); omega), dif_neg (by show ¬ (6 < 6); omega)]

omit [FloatOps F] in
/-- The rest of the barrier cell's round, no duty taken: the three groups of rows. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, bigSep_univ_eq_bigSepL [0, 1, 2] (by decide) (by decide)]
  rfl
omit [FloatOps F] in
theorem rest_snd : bigSep ((a2aRd (F := F) m).duties (sndCell c j) 0 \ ∅) (fun d => (a2aRd (F := F) m).payload (sndCell c j) 0 d) = sndPay m c j := by
  rw [Finset.sdiff_empty, duties_snd, bigSep_singleton, payload_snd]
omit [FloatOps F] in
theorem rest_rcv : bigSep ((a2aRd (F := F) m).duties (rcvCell c j) 0 \ ∅) (fun d => (a2aRd (F := F) m).payload (rcvCell c j) 0 d) = rcvPay m c j := by
  rw [Finset.sdiff_empty, duties_rcv, bigSep_singleton, payload_rcv]
omit [FloatOps F] in
theorem rest_loc : bigSep ((a2aRd (F := F) m).duties (locCell c) 0 \ ∅) (fun d => (a2aRd (F := F) m).payload (locCell c) 0 d) = locPay m c := by
  rw [Finset.sdiff_empty, duties_loc, bigSep_singleton, payload_loc]

end Sched

end Cert.Kernel.A2A

end
-- ==== Proof.KData.lean ====
/-
  What each device owes at launch, the levels that order its waits, and the proof data of the one grid point:
  the ghost state a device's body starts from and the two states of the region invariant.
-/
import proofs.«900408_g7700000000000409_dist_a2a_v7x_xyz2x4x4_z_m256_n256_f32_1_alg».proof.Proof.KSched

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- After its three signals a device still owes the three receive cells it will send to; the first copy (to
    `tgt c 0`) peels the last summand. -/
def OR (c : Dev nD) : CellTallies nD τ sig Unit :=
  tallyAt (rcvCell (tgt c 2) 2) () N + tallyAt (rcvCell (tgt c 1) 1) () N + tallyAt (rcvCell (tgt c 0) 0) () N
def O₂ (c : Dev nD) : CellTallies nD τ sig Unit := OR c + tallyAt (barCell (tgt c 2)) () 1
def O₁ (c : Dev nD) : CellTallies nD τ sig Unit := O₂ c + tallyAt (barCell (tgt c 1)) () 1
/-- From launch: besides, one unit to the barrier cell of each other member of its group; the first signal (to
    `tgt c 0`) peels the last summand. -/
def O₀ (c : Dev nD) : CellTallies nD τ sig Unit := O₁ c + tallyAt (barCell (tgt c 0)) () 1

def L (g : GSem nD τ sig) : Finset Unit := if g.1.2 = .tc then {()} else ∅
/-- Barrier cells at 1, receive cells at 2, send and local cells at 0. -/
def lv (g : GSem nD τ sig) (_ : Unit) : ℕ :=
  match g.2 with
  | .reg _ => 1
  | .dma s => if 3 ≤ s.val ∧ s.val < 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_rcv (c : Dev nD) (j : Fin 3) : lv (rcvCell c j) () = 2 := by
  show (if 3 ≤ 3 + j.val ∧ 3 + j.val < 6 then 2 else 0) = 2
  rw [if_pos ⟨by omega, by have := j.isLt; omega⟩]

theorem OR_pos {c : Dev nD} {g : GSem nD τ sig} {u : Unit} (h : 0 < OR c g u) : ∃ j, g = rcvCell (tgt c j) j := by
  unfold OR at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
/-- At its barrier wait a device owes receive cells only, which sit above the barrier cells. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, rfl⟩ := OR_pos hg; rw [L_tc]; exact Finset.mem_singleton_self _)
    (fun p hp => by rw [Finset.mem_singleton.mp hp]; exact le_of_eq (lv_bar c))
    (fun g u hg => by obtain ⟨j, rfl⟩ := OR_pos hg; rw [lv_rcv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own eight,
    the barrier cells of the three others of its group (its signals) and their receive cells it pays (its copies). -/
def invs (K : Dev nD × Fin 8 → ℕ) (c : Dev nD) : sProp 𝕄 :=
  iprop(cellInv ER (a2aRd m) (K (c, 0)) (barCell c)
    ∗ (cellInv ER (a2aRd m) (K (c, 1)) (sndCell c 0) ∗ cellInv ER (a2aRd m) (K (c, 2)) (sndCell c 1) ∗ cellInv ER (a2aRd m) (K (c, 3)) (sndCell c 2))
    ∗ (cellInv ER (a2aRd m) (K (c, 4)) (rcvCell c 0) ∗ cellInv ER (a2aRd m) (K (c, 5)) (rcvCell c 1) ∗ cellInv ER (a2aRd m) (K (c, 6)) (rcvCell c 2))
    ∗ cellInv ER (a2aRd m) (K (c, 7)) (locCell c)
    ∗ (cellInv ER (a2aRd m) (K (tgt c 0, 0)) (barCell (tgt c 0)) ∗ cellInv ER (a2aRd m) (K (tgt c 1, 0)) (barCell (tgt c 1)) ∗ cellInv ER (a2aRd m) (K (tgt c 2, 0)) (barCell (tgt c 2)))
    ∗ (cellInv ER (a2aRd m) (K (tgt c 0, 4)) (rcvCell (tgt c 0) 0) ∗ cellInv ER (a2aRd m) (K (tgt c 1, 5)) (rcvCell (tgt c 1) 1) ∗ cellInv ER (a2aRd m) (K (tgt c 2, 6)) (rcvCell (tgt c 2) 2)))

instance invs_persistent (K : Dev nD × Fin 8 → ℕ) (c : Dev nD) : BI.Persistent (invs m K c) := by unfold invs; infer_instance

/-- Its positions: at the start of round 0 of each of its eight cells. -/
def poss (c : Dev nD) : sProp 𝕄 :=
  iprop(atPos ER (barCell c) 0 ∅ 0
    ∗ (atPos ER (sndCell c 0) 0 ∅ 0 ∗ atPos ER (sndCell c 1) 0 ∅ 0 ∗ atPos ER (sndCell c 2) 0 ∅ 0)
    ∗ (atPos ER (rcvCell c 0) 0 ∅ 0 ∗ atPos ER (rcvCell c 1) 0 ∅ 0 ∗ atPos ER (rcvCell c 2) 0 ∅ 0)
    ∗ atPos ER (locCell c) 0 ∅ 0)

/-- That round 0 is reached, of every cell it pays a duty of. -/
def rchd (c : Dev nD) : sProp 𝕄 :=
  iprop((reached ER (barCell (tgt c 0)) 0 ∗ reached ER (barCell (tgt c 1)) 0 ∗ reached ER (barCell (tgt c 2)) 0)
    ∗ (reached ER (rcvCell (tgt c 0) 0) 0 ∗ reached ER (rcvCell (tgt c 1) 1) 0 ∗ reached ER (rcvCell (tgt c 2) 2) 0)
    ∗ (reached ER (sndCell c 0) 0 ∗ reached ER (sndCell c 1) 0 ∗ reached ER (sndCell c 2) 0)
    ∗ reached ER (locCell c) 0)

instance rchd_persistent (c : Dev nD) : BI.Persistent (rchd (F := F) c) := by unfold rchd; infer_instance

/-- The tokens of the ten duties it pays: signal `j` pays duty `j` of `tgt c j`'s barrier cell, copy `j` the duty of
    `tgt c j`'s receive cell `j` and of its own send cell `j`, the local copy the duty of its local cell. -/
def payToks (c : Dev nD) : sProp 𝕄 :=
  iprop((dutyTok ER (barCell (tgt c 0)) 0 0 ∗ dutyTok ER (barCell (tgt c 1)) 0 1 ∗ dutyTok ER (barCell (tgt c 2)) 0 2)
    ∗ (dutyTok ER (rcvCell (tgt c 0) 0) 0 0 ∗ dutyTok ER (rcvCell (tgt c 1) 1) 0 0 ∗ dutyTok ER (rcvCell (tgt c 2) 2) 0 0)
    ∗ (dutyTok ER (sndCell c 0) 0 0 ∗ dutyTok ER (sndCell c 1) 0 0 ∗ dutyTok ER (sndCell c 2) 0 0)
    ∗ dutyTok ER (locCell c) 0 0)

/-- The protocol's ghost state device `c` starts from. -/
def ghost (K : Dev nD × Fin 8 → ℕ) (c : Dev nD) : sProp 𝕄 :=
  iprop(invs m K c ∗ poss c ∗ rchd c ∗ payToks c)

/-- Its credit: the three units of its barrier cell and the block's credit of each receive cell. -/
def creds (c : Dev nD) : sProp 𝕄 :=
  iprop(cred (tallyAt (barCell c) () 3)
    ∗ cred (tallyAt (rcvCell c 0) () N) ∗ cred (tallyAt (rcvCell c 1) () N) ∗ cred (tallyAt (rcvCell c 2) () N))

/-- What device `c`'s body starts from, besides its two arrays. -/
def start (c : Dev nD) : sProp 𝕄 :=
  iprop((∃ K, ghost m K c) ∗ creds c ∗ levAts L lv)

/-- The two arrays, whole. -/
def argPts (c : Dev nD) : sProp 𝕄 := ((c : Thread nD τ).loc main_arg0) ↦{fullShare} X m c
def outPts (c : Dev nD) (f : Buf (Elt F) ((c : Thread nD τ).loc main_v1)) : sProp 𝕄 := ((c : Thread nD τ).loc main_v1) ↦{fullShare} f

/-- The seven own cells at zero, closed. -/
def zeros (c : Dev nD) : sProp 𝕄 :=
  iprop((semVal (sndCell c 0) 0 ∗ semVal (sndCell c 1) 0 ∗ semVal (sndCell c 2) 0)
    ∗ (semVal (rcvCell c 0) 0 ∗ semVal (rcvCell c 1) 0 ∗ semVal (rcvCell c 2) 0)
    ∗ semVal (locCell c) 0)

def Φ₀ (c : Dev nD) : sProp 𝕄 := iprop(start m c ∗ argPts m c ∗ ∃ f, outPts c f)
/-- After the point: the argument as launched, the result at its final contents, the own cells closed. -/
def Φ₁ (c : Dev nD) : sProp 𝕄 := iprop(argPts m c ∗ outPts c (outFinal m c) ∗ zeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2A

end
-- ==== Proof.KValue.lean ====
/-
  The index arithmetic of the all-to-all's values. A result array is four blocks of 256 rows, one per member of the
  group, and an argument block is four blocks of 256 columns, one kept and three sent: the blocks are pairwise disjoint
  and cover their arrays. A copy through a row block of the result of a column block of an argument lands, on the rows
  it writes, exactly what the result holds in the end (`outFinal`). And when the devices' argument blocks are the row
  blocks of one whole array, the final result of a device is its column block of that array.
-/
import proofs.«900408_g7700000000000409_dist_a2a_v7x_xyz2x4x4_z_m256_n256_f32_1_alg».proof.Proof.KViews
import Idealize.ShloMosaic.Lib.Layout
import Idealize.ShloMosaic.Lib.Pipeline.Value
import Idealize.ShloMosaic.Lib.ValueIdx

noncomputable section

namespace Cert.Kernel.A2A

open Cert.Kernel Cert.Kernel.Gen
open Idealize.ShloMosaic Idealize.ShloMosaic.TcCoe

variable {F : FTy → Type} [FloatOps F]

/-! ## Which rows and columns a block is -/

/-- The rows of a result array that belong to device `p`: the 256 from `256 (p % 4)`, all columns. -/
theorem mem_oS (p : Dev nD) (i : S1024x256.Idx) :
    i ∈ (oS p).view.set ↔ 256 * (p.val % 4) ≤ (i 0).val ∧ (i 0).val < 256 * (p.val % 4) + 256 := by
  have h : (oS p).view.set = (Rect.unit (s := S1024x256) (k0_off1 p) S256x256.size (k0_off1_inb p)).set :=
    View.set_slice_whole main_v1 _
  have h1 : (i 1).val < 256 := (i 1).isLt
  rw [h, Rect.mem_set_unit, Fin.forall_fin_two, Gen.k0_off1_eq]
  show (256 * (p.val % 4) ≤ (i 0).val ∧ (i 0).val < 256 * (p.val % 4) + 256) ∧ (0 ≤ (i 1).val ∧ (i 1).val < 0 + 256) ↔ _
  omega

/-- The columns of an argument block a device keeps: the 256 from `256 (c % 4)`, all rows. -/
theorem mem_aL (c : Dev nD) (i : S256x1024.Idx) :
    i ∈ (aL c).view.set ↔ 256 * (c.val % 4) ≤ (i 1).val ∧ (i 1).val < 256 * (c.val % 4) + 256 := by
  have h : (aL c).view.set = (Rect.unit (s := S256x1024) (k0_off2 c) S256x256.size (k0_off2_inb c)).set :=
    View.set_slice_whole main_arg0 _
  have h0 : (i 0).val < 256 := (i 0).isLt
  rw [h, Rect.mem_set_unit, Fin.forall_fin_two, Gen.k0_off2_eq]
  show (0 ≤ (i 0).val ∧ (i 0).val < 0 + 256) ∧ (256 * (c.val % 4) ≤ (i 1).val ∧ (i 1).val < 256 * (c.val % 4) + 256) ↔ _
  omega

/-- The columns it sends `j + 1` steps on: the 256 from `256 ((c % 4 + j + 1) % 4)`, all rows. -/
theorem mem_aR (c : Dev nD) (j : Fin 3) (i : S256x1024.Idx) :
    i ∈ (aR c j).view.set ↔ 256 * ((c.val % 4 + j.val + 1) % 4) ≤ (i 1).val ∧ (i 1).val < 256 * ((c.val % 4 + j.val + 1) % 4) + 256 := by
  have h : (aR c j).view.set = (Rect.unit (s := S256x1024) (k0_off3 c (BitVec.ofNat 32 (1 + j.val))) S256x256.size (k0_off3_inb c j)).set :=
    View.set_slice_whole main_arg0 _
  have h0 : (i 0).val < 256 := (i 0).isLt
  rw [h, Rect.mem_set_unit, Fin.forall_fin_two, off3_eq]
  show (0 ≤ (i 0).val ∧ (i 0).val < 0 + 256) ∧ (256 * ((c.val % 4 + j.val + 1) % 4) ≤ (i 1).val ∧ (i 1).val < 256 * ((c.val % 4 + j.val + 1) % 4) + 256) ↔ _
  omega

/-- The rows that belong to the group member `j + 1` steps on. -/
theorem mem_oS_tgt (c : Dev nD) (j : Fin 3) (i : S1024x256.Idx) :
    i ∈ (oS (tgt c j)).view.set ↔ 256 * ((c.val % 4 + j.val + 1) % 4) ≤ (i 0).val ∧ (i 0).val < 256 * ((c.val % 4 + j.val + 1) % 4) + 256 := by
  rw [mem_oS, tgt_mod]

theorem fin3_val0 : ((0 : Fin 3) : ℕ) = 0 := rfl
theorem fin3_val1 : ((1 : Fin 3) : ℕ) = 1 := rfl
theorem fin3_val2 : ((2 : Fin 3) : ℕ) = 2 := rfl

/-! ## The blocks partition their arrays -/

/-- The four row blocks of a result array — the device's own and its three group members' — cover it. -/
theorem oS_cover (c : Dev nD) : (Finset.univ : Finset (Idx ((c : Thread nD τ).loc main_v1))) = (oS c).view.set ∪ ((oS (tgt c 0)).view.set ∪ ((oS (tgt c 1)).view.set ∪ (oS (tgt c 2)).view.set)) := by
  refine (Finset.eq_univ_of_forall fun i => ?_).symm
  have h0 : (i 0).val < 1024 := (i 0).isLt
  rw [Finset.mem_union, Finset.mem_union, Finset.mem_union]
  refine (or_congr (mem_oS c i) (or_congr (mem_oS_tgt c 0 i) (or_congr (mem_oS_tgt c 1 i) (mem_oS_tgt c 2 i)))).mpr ?_
  rw [fin3_val0, fin3_val1, fin3_val2]
  omega

/-- Row blocks of devices at different last coordinates are disjoint. -/
theorem oS_disj (p p' : Dev nD) (h : p.val % 4 ≠ p'.val % 4) : Disjoint (oS p).view.set (oS p').view.set :=
  Finset.disjoint_left.mpr fun i hi hi' => by
    rw [mem_oS] at hi hi'; omega

/-- The four column blocks of an argument block — the one kept and the three sent — cover it. -/
theorem aS_cover (c : Dev nD) : (Finset.univ : Finset (Idx ((c : Thread nD τ).loc main_arg0))) = (aL c).view.set ∪ ((aR c 0).view.set ∪ ((aR c 1).view.set ∪ (aR c 2).view.set)) := by
  refine (Finset.eq_univ_of_forall fun i => ?_).symm
  have h1 : (i 1).val < 1024 := (i 1).isLt
  rw [Finset.mem_union, Finset.mem_union, Finset.mem_union]
  refine (or_congr (mem_aL c i) (or_congr (mem_aR c 0 i) (or_congr (mem_aR c 1 i) (mem_aR c 2 i)))).mpr ?_
  rw [fin3_val0, fin3_val1, fin3_val2]
  omega

/-- The column block kept is disjoint from each one sent. -/
theorem aL_aR_disj (c : Dev nD) (j : Fin 3) : Disjoint (aL c).view.set (aR c j).view.set :=
  Finset.disjoint_left.mpr fun i hi hi' => by
    rw [mem_aL] at hi; rw [mem_aR] at hi'; have := j.isLt; omega

/-- Column blocks sent to different group members are disjoint. -/
theorem aR_aR_disj (c : Dev nD) (j j' : Fin 3) (h : j ≠ j') : Disjoint (aR c j).view.set (aR c j').view.set :=
  Finset.disjoint_left.mpr fun i hi hi' => by
    rw [mem_aR] at hi hi'; have := j.isLt; have := j'.isLt; have : j.val ≠ j'.val := fun e => h (Fin.ext e); omega

/-! ## Where a block's index lands -/

theorem emb_oS_0 (p : Dev nD) (y : S256x256.Idx) : ((oS p).view.emb y 0).val = 256 * (p.val % 4) + (y 0).val := by
  show k0_off1 p 0 + 1 * (y 0).val = _
  rw [Gen.k0_off1_eq]; show 256 * (p.val % 4) + 1 * (y 0).val = _; omega
theorem emb_oS_1 (p : Dev nD) (y : S256x256.Idx) : ((oS p).view.emb y 1).val = (y 1).val := by
  show k0_off1 p 1 + 1 * (y 1).val = _
  rw [Gen.k0_off1_eq]; show 0 + 1 * (y 1).val = _; omega
theorem emb_aL_0 (c : Dev nD) (y : S256x256.Idx) : ((aL c).view.emb y 0).val = (y 0).val := by
  show k0_off2 c 0 + 1 * (y 0).val = _
  rw [Gen.k0_off2_eq]; show 0 + 1 * (y 0).val = _; omega
theorem emb_aL_1 (c : Dev nD) (y : S256x256.Idx) : ((aL c).view.emb y 1).val = 256 * (c.val % 4) + (y 1).val := by
  show k0_off2 c 1 + 1 * (y 1).val = _
  rw [Gen.k0_off2_eq]; show 256 * (c.val % 4) + 1 * (y 1).val = _; omega
theorem emb_aR_0 (c : Dev nD) (j : Fin 3) (y : S256x256.Idx) : ((aR c j).view.emb y 0).val = (y 0).val := by
  show k0_off3 c (BitVec.ofNat 32 (1 + j.val)) 0 + 1 * (y 0).val = _
  rw [off3_eq]; show 0 + 1 * (y 0).val = _; omega
theorem emb_aR_1 (c : Dev nD) (j : Fin 3) (y : S256x256.Idx) :
    ((aR c j).view.emb y 1).val = 256 * ((c.val % 4 + j.val + 1) % 4) + (y 1).val := by
  show k0_off3 c (BitVec.ofNat 32 (1 + j.val)) 1 + 1 * (y 1).val = _
  rw [off3_eq]; show 256 * ((c.val % 4 + j.val + 1) % 4) + 1 * (y 1).val = _; omega

/-- The same entry of the same device's argument block, named twice. -/
theorem X_congr (m : (ℓ : Loc nD τ sig) → Buf (Elt F) ℓ) {d d' : Dev nD} (h : d = d') {x x' : S256x1024.Idx} (hx : x = x') :
    X m d x = X m d' x' := by subst h; subst hx; rfl

theorem ix2_congr {n0 n1 : Nat} {a a' : Fin n0} {b b' : Fin n1} (ha : a.val = a'.val) (hb : b.val = b'.val) :
    ValueIdx.ix2 a b = ValueIdx.ix2 a' b' := by rw [Fin.ext ha, Fin.ext hb]

/-! ## What a copy lands -/

/-- The copy of the column block `q` sends `j + 1` steps on, written over `q`'s row block of the receiver's result
    (whatever those rows held before), is the receiver's final result on the rows written. -/
theorem landed_rem (m : (ℓ : Loc nD τ sig) → Buf (Elt F) ℓ) (q : Dev nD) (j : Fin 3) (fd : Buf (Elt F) ((oS q).view.loc ((tgt q j : Dev nD) : Thread nD τ))) :
    ∀ i ∈ (oS q).view.set, (oS q).view.write (Elt F) fd ((aR q j).view.read (Elt F) (X m q)) Finset.univ i = outFinal m (tgt q j) i := by
  intro i hi
  obtain ⟨y, rfl⟩ := View.exists_emb_of_mem_set _ hi
  rw [View.write_emb_of_mem _ _ (Finset.mem_univ y), View.read_apply, cast_eq, cast_eq]
  have hy0 : (y 0).val < 256 := (y 0).isLt
  have hq : q.val < 32 := q.isLt
  unfold outFinal
  refine X_congr m (Fin.ext ?_) ((ValueIdx.eq_ix2 (n0 := 256) (n1 := 1024) ((aR q j).view.emb y)).trans (ix2_congr ?_ ?_))
  · show q.val = 4 * ((tgt q j).val / 4) + ((oS q).view.emb y 0).val / 256
    rw [tgt_div, emb_oS_0]; omega
  · show ((aR q j).view.emb y 0).val = ((oS q).view.emb y 0).val % 256
    rw [emb_aR_0, emb_oS_0]; omega
  · show ((aR q j).view.emb y 1).val = 256 * ((tgt q j).val % 4) + ((oS q).view.emb y 1).val
    rw [emb_aR_1, emb_oS_1, tgt_mod]

/-- The copy of the column block a device keeps, written over its own row block of its result, is its final result
    on the rows written. -/
theorem landed_loc (m : (ℓ : Loc nD τ sig) → Buf (Elt F) ℓ) (c : Dev nD) (fd : Buf (Elt F) ((oS c).view.loc (c : Thread nD τ))) :
    ∀ i ∈ (oS c).view.set, (oS c).view.write (Elt F) fd ((aL c).view.read (Elt F) (X m c)) Finset.univ i = outFinal m c i := by
  intro i hi
  obtain ⟨y, rfl⟩ := View.exists_emb_of_mem_set _ hi
  rw [View.write_emb_of_mem _ _ (Finset.mem_univ y), View.read_apply, cast_eq, cast_eq]
  have hy0 : (y 0).val < 256 := (y 0).isLt
  have hc : c.val < 32 := c.isLt
  unfold outFinal
  refine X_congr m (Fin.ext ?_) ((ValueIdx.eq_ix2 (n0 := 256) (n1 := 1024) ((aL c).view.emb y)).trans (ix2_congr ?_ ?_))
  · show c.val = 4 * (c.val / 4) + ((oS c).view.emb y 0).val / 256
    rw [emb_oS_0]; omega
  · show ((aL c).view.emb y 0).val = ((oS c).view.emb y 0).val % 256
    rw [emb_aL_0, emb_oS_0]; omega
  · show ((aL c).view.emb y 1).val = 256 * (c.val % 4) + ((oS c).view.emb y 1).val
    rw [emb_aL_1, emb_oS_1]

/-! ## The final result as a block of the whole array -/

/-- On the 2 × 4 × 4 mesh a dimension cut along the last axis gives device `c` block `c % 4`. -/
theorem meshLin_z (c : Nat) : Layout.meshLin [2, 4, 4] c [2] = c % 4 := by
  show c / 1 % 4 * 1 + 0 = c % 4; omega

/-- When each device's argument block is its row block (by last coordinate) of one whole array, the final result of
    device `c` is the column block `c % 4` of that array. -/
theorem outFinal_block (m : (ℓ : Loc nD τ sig) → Buf (Elt F) ℓ) (v : (⟨2, ![1024, 1024]⟩ : Shape).Idx → Elt F .f32)
    (hm : ∀ c : Dev nD, m ((c.tc : Thread nD τ).loc main_arg0) = Layout.blockN ⟨2, ![256, 1024]⟩ ⟨2, ![1024, 1024]⟩ (Layout.meshBlock [2, 4, 4] ![[2], []] c) v) (c : Dev nD) :
    outFinal m c = Layout.blockN ⟨2, ![1024, 256]⟩ ⟨2, ![1024, 1024]⟩ (Layout.meshBlock [2, 4, 4] ![[], [2]] c) v := by
  funext i
  have hi0 : (i 0).val < 1024 := (i 0).isLt
  have hi1 : (i 1).val < 256 := (i 1).isLt
  have hc : c.val < 32 := c.isLt
  unfold outFinal X
  rw [hm, Layout.blockN_apply, Layout.blockN_apply]
  congr 1
  refine funext fun b => Fin.ext ?_
  match b with
  | ⟨0, _⟩ =>
    show Layout.meshLin [2, 4, 4] (zmem c ⟨(i 0).val / 256, _⟩).val [2] * 256 + (i 0).val % 256
        = Layout.meshLin [2, 4, 4] c.val [] * 1024 + (i 0).val
    rw [meshLin_z]
    show (4 * (c.val / 4) + (i 0).val / 256) % 4 * 256 + (i 0).val % 256 = 0 * 1024 + (i 0).val
    omega
  | ⟨1, _⟩ =>
    show 0 * 1024 + (256 * (c.val % 4) + (i 1).val) = Layout.meshLin [2, 4, 4] c.val [2] * 256 + (i 1).val
    rw [meshLin_z]
    omega

/-- info: 'Cert.Kernel.A2A.outFinal_block' depends on axioms: [propext, Classical.choice, Quot.sound] -/
#guard_msgs in #print axioms outFinal_block

end Cert.Kernel.A2A

end
-- ==== Proof.KBody.lean ====
/-
  One device's body, stepped effect by effect from the ghost state the launch deals it: the three signals hand the
  three other members of the group the rows of this device's result they will fill; the wait on the barrier
  brings this device the rows it fills in theirs; the local copy and the three remote copies pay their cells
  with the blocks at their final contents; the seven waits bring back the four column blocks of the argument and
  the four groups of rows of the result, which rejoin into the two arrays.
-/
import proofs.«900408_g7700000000000409_dist_a2a_v7x_xyz2x4x4_z_m256_n256_f32_1_alg».proof.Proof.KData
import proofs.«900408_g7700000000000409_dist_a2a_v7x_xyz2x4x4_z_m256_n256_f32_1_alg».proof.Proof.KValue

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed semaphore views are the cells' semaphores -/

omit [FloatOps F] in
theorem snd0_eq : ((SemArray.slice cc0_scratch0 (Rect.unit (s := S3) ![0] S1.size Facts₀.inb_S3_S1_0)).squeeze S_ Facts₀.squeezes_S1_S_).sem = sndS 0 := rfl
omit [FloatOps F] in
theorem snd1_eq : ((SemArray.slice cc0_scratch0 (Rect.unit (s := S3) ![1] S1.size Facts₀.inb_S3_S1_1)).squeeze S_ Facts₀.squeezes_S1_S_).sem = sndS 1 := rfl
omit [FloatOps F] in
theorem snd2_eq : ((SemArray.slice cc0_scratch0 (Rect.unit (s := S3) ![2] S1.size Facts₀.inb_S3_S1_2)).squeeze S_ Facts₀.squeezes_S1_S_).sem = sndS 2 := rfl
omit [FloatOps F] in
theorem rcv0_eq : ((SemArray.slice cc0_scratch1 (Rect.unit (s := S3) ![0] S1.size Facts₀.inb_S3_S1_0)).squeeze S_ Facts₀.squeezes_S1_S_).sem = rcvS 0 := rfl
omit [FloatOps F] in
theorem rcv1_eq : ((SemArray.slice cc0_scratch1 (Rect.unit (s := S3) ![1] S1.size Facts₀.inb_S3_S1_1)).squeeze S_ Facts₀.squeezes_S1_S_).sem = rcvS 1 := rfl
omit [FloatOps F] in
theorem rcv2_eq : ((SemArray.slice cc0_scratch1 (Rect.unit (s := S3) ![2] S1.size Facts₀.inb_S3_S1_2)).squeeze S_ Facts₀.squeezes_S1_S_).sem = rcvS 2 := rfl
omit [FloatOps F] in
theorem loc_eq : (SemArray.sem cc0_scratch2) = locS := rfl

/-! ## An array held whole is held by its four blocks -/

omit [FloatOps F] in
theorem pts_split4 {ℓ : Loc nD τ sig} (A B C D : Finset (Idx ℓ)) (q : PosShare TreeShare) (f : Buf (Elt F) ℓ)
    (hc : (Finset.univ : Finset (Idx ℓ)) = A ∪ (B ∪ (C ∪ D))) (hA : Disjoint A (B ∪ (C ∪ D))) (hB : Disjoint B (C ∪ D)) (hC : Disjoint C D) :
    (ℓ ↦{q} f : sProp 𝕄) ⊣⊢ iprop((ℓ ↦[A]{q} f) ∗ (ℓ ↦[B]{q} f) ∗ (ℓ ↦[C]{q} f) ∗ (ℓ ↦[D]{q} f)) := by
  rw [hc]
  exact (Region.is_union hA).trans (sep_congr_right ((Region.is_union hB).trans (sep_congr_right (Region.is_union hC))))

theorem tgt_mod_ne (c : Dev nD) (j : Fin 3) : c.val % 4 ≠ (tgt c j).val % 4 := by rw [tgt_mod]; have := j.isLt; omega
theorem tgt_mod_ne' (c : Dev nD) (j j' : Fin 3) (h : j ≠ j') : (tgt c j).val % 4 ≠ (tgt c j').val % 4 := by
  rw [tgt_mod, tgt_mod]; have := j.isLt; have := j'.isLt; have : j.val ≠ j'.val := fun e => h (Fin.ext e); omega

omit [FloatOps F] in
/-- The result array of `c`, whole, is its own rows and the rows of the three others. -/
theorem out_split (c : Dev nD) (f : Buf (Elt F) ((c : Thread nD τ).loc main_v1)) :
    (outPts c f : sProp 𝕄) ⊣⊢ iprop(oPts c c f ∗ oPts c (tgt c 0) f ∗ oPts c (tgt c 1) f ∗ oPts c (tgt c 2) f) := by
  unfold outPts oPts
  exact pts_split4 _ _ _ _ fullShare f (oS_cover c)
    (Finset.disjoint_union_right.mpr ⟨oS_disj _ _ (tgt_mod_ne c 0), Finset.disjoint_union_right.mpr ⟨oS_disj _ _ (tgt_mod_ne c 1), oS_disj _ _ (tgt_mod_ne c 2)⟩⟩)
    (Finset.disjoint_union_right.mpr ⟨oS_disj _ _ (tgt_mod_ne' c 0 1 (by decide)), oS_disj _ _ (tgt_mod_ne' c 0 2 (by decide))⟩)
    (oS_disj _ _ (tgt_mod_ne' c 1 2 (by decide)))

omit [FloatOps F] in
/-- The argument block of `c`, whole, is the column block it keeps and the three it sends. -/
theorem arg_split (c : Dev nD) :
    (argPts m c : sProp 𝕄) ⊣⊢ iprop(aLPts m c ∗ aRPts m c 0 ∗ aRPts m c 1 ∗ aRPts m c 2) := by
  unfold argPts aLPts aRPts
  exact pts_split4 _ _ _ _ fullShare (X m c) (aS_cover c)
    (Finset.disjoint_union_right.mpr ⟨aL_aR_disj c 0, Finset.disjoint_union_right.mpr ⟨aL_aR_disj c 1, aL_aR_disj c 2⟩⟩)
    (Finset.disjoint_union_right.mpr ⟨aR_aR_disj c 0 1 (by decide), aR_aR_disj c 0 2 (by decide)⟩)
    (aR_aR_disj c 1 2 (by decide))

/-! ## The steps that address another device -/

/-- Signal `j`, to `n = tgt c j`: it pays duty `j` of that device's barrier cell with the rows of `c`'s result that device
    will fill. -/
theorem wp_sig (c n : Dev nD) (j : Fin 3) (hn : n = tgt c j) (κ : ℕ) (O : CellTallies nD τ sig Unit) (W : Waits sig Unit)
    {α : Type} {Q : α → sProp 𝕄} {k : PUnit → Prog (TpuEff nD τ sig (Elt F) Λ₀ .tc) α}
    (f : Buf (Elt F) ((oS (tgt c j)).view.loc (c : Thread nD τ))) :
    iprop(cellInv ER (a2aRd m) κ (barCell (tgt c j)) ∗ owes (c : Thread nD τ) (O + tallyAt (barCell (tgt c j)) () 1) W
        ∗ dutyTok ER (barCell (tgt c j)) 0 j ∗ oPts c (tgt c j) f ∗ reached ER (barCell (tgt c j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  refine (sep_mono_right (sep_mono_right (sep_mono_right (sep_mono_left ?_)))).trans
    (Rounds.wp_signal 𝒱₀ ER (a2aRd m) (c : Thread nD τ) none (dst := (tgt c j : Thread nD τ)) (κ := κ) (d := j)
      (by rw [duties_bar]; exact Finset.mem_univ _) ((amount_bar m (tgt c j) j).trans (by decide)) () O rfl)
  rw [payload_bar]; unfold barPay; rw [tgt_tgt_rev]
  iintro H; iexists f; iexact H

/-- Remote copy `j`, to `n = tgt c j`: it pays the duty of `c`'s send cell `j` with the column block it read and the
    duty of that device's receive cell `j` with `c`'s rows of that device's result, at their final contents. -/
theorem wp_snd (c n : Dev nD) (j : Fin 3) (hn : n = tgt c j) (κ₁ κ₂ : ℕ) (O₀ O : CellTallies nD τ sig Unit)
    (hO : O₀ = O + tallyAt (rcvCell (tgt c j) j) () N) (W : Waits sig Unit)
    {hsc : (oS c : Memref sig (Dev.tc n : Thread nD τ).2.kind .hbm S256x256 .f32).view.ref.isScScratch = false}
    {hsrc : (aR c j : Memref sig .tc .hbm S256x256 .f32).view.WordExact} {hdst : (oS c : Memref sig .tc .hbm S256x256 .f32).view.WordExact}
    {hsem : DmaTarget.Typed .hbm (.dma (rcvS j)) (.remote (Dev.tc n : Thread nD τ) (oS c : Memref sig .tc .hbm S256x256 .f32) (.dma (sndS j)) hsc)}
    {α : Type} {Q : α → sProp 𝕄} {k : PUnit → Prog (TpuEff nD τ sig (Elt F) Λ₀ .tc) α}
    (fd : Buf (Elt F) ((oS c).view.loc ((tgt c j : Dev nD) : Thread nD τ))) :
    iprop(cellInv ER (a2aRd m) κ₁ (sndCell c j) ∗ cellInv ER (a2aRd m) κ₂ (rcvCell (tgt c j) j)
        ∗ aRPts m c j ∗ oPts (tgt c j) c fd
        ∗ owes (c : Thread nD τ) O₀ W
        ∗ dutyTok ER (sndCell c j) 0 0 ∗ reached ER (sndCell c j) 0
        ∗ dutyTok ER (rcvCell (tgt c j) j) 0 0 ∗ reached ER (rcvCell (tgt c j) j) 0)
      ⊢ iprop(((cred (tallyAt (sndCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aR c j) (.remote (Dev.tc n : Thread nD τ) (oS c) (.dma (sndS j)) hsc) (.dma (rcvS j)) hsrc hdst hsem) k) Q) := by
  subst hn
  unfold aRPts oPts
  exact Rounds.wp_send_pointsTo 𝒱₀ ER (a2aRd m) (c : Thread nD τ) none (c' := (tgt c j : Thread nD τ)) (src := aR c j) (dst := oS c)
    (q := fullShare) (fs := X m c) (κ₁ := κ₁) (κ₂ := κ₂)
    (r₁ := 0) (r₂ := 0) (d₁ := 0) (d₂ := 0) (fd := fd)
    (by rw [duties_snd]; exact Finset.mem_singleton_self _) (by rw [duties_rcv]; exact Finset.mem_singleton_self _)
    () () N rfl (amount_snd m c j 0) (amount_rcv m (tgt c j) j 0) O hO (W := W)
    (by rw [payload_snd]; unfold sndPay aRPts; exact BI.Entails.refl _)
    (by rw [payload_rcv]; unfold rcvPay oPts; rw [tgt_tgt_rev]; exact Entails.of_eq (Region.is_congr (landed_rem m c j fd)))

/-! ## The body -/

section Body

variable (K : Dev nD × Fin 8 → ℕ)

def bodyPre (c : Dev nD) : sProp 𝕄 :=
  iprop(ghost m K c ∗ creds c ∗ levAts L lv ∗ argPts m c ∗ (∃ f, outPts c f) ∗ (dats m 0 c).owesAt () t₀.castSucc)

def bodyPost (c : Dev nD) : sProp 𝕄 :=
  iprop(Φ₁ m c ∗ (dats m 0 c).owesAt () t₀.succ)

set_option maxHeartbeats 1600000 in
set_option maxRecDepth 8000 in
/-- The body, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs poss rchd payToks creds
  iintro ⟨⟨⟨⟨#HIbar, ⟨#HIs0, #HIs1, #HIs2⟩, ⟨#HIr0, #HIr1, #HIr2⟩, #HIloc, ⟨#HIb0, #HIb1, #HIb2⟩, ⟨#HIv0, #HIv1, #HIv2⟩⟩,
      ⟨HatB, ⟨HatS0, HatS1, HatS2⟩, ⟨HatR0, HatR1, HatR2⟩, HatL⟩,
      ⟨⟨#HrB0, #HrB1, #HrB2⟩, ⟨#HrV0, #HrV1, #HrV2⟩, ⟨#HrS0, #HrS1, #HrS2⟩, #HrL⟩,
      ⟨⟨HtB0, HtB1, HtB2⟩, ⟨HtV0, HtV1, HtV2⟩, ⟨HtS0, HtS1, HtS2⟩, HtL⟩⟩,
    ⟨HcB, HcR0, HcR1, HcR2⟩, #Hlev, Harg, ⟨%f0, Hout⟩, Ho⟩, Hk⟩
  unfold Dat.owesAt Pipeline.owesWithin
  icases Ho with ⟨%W, %hW, HO⟩
  rw [show (dats m 0 c).owed t₀.castSucc = O₀ c from rfl]
  -- the two arrays by their blocks
  ihave Hos := (out_split c f0).1 $$ Hout
  icases Hos with ⟨HoC, Ho0, Ho1, Ho2⟩
  ihave Has := (arg_split m c).1 $$ Harg
  icases Has with ⟨HaL, Ha0, Ha1, Ha2⟩
  -- the three signals
  unfold O₀
  iapply (wp_sig m c _ 0 (dev1_eq c) (K (tgt c 0, 0)) (O₁ c) W f0) $$ [HO HtB0 Ho0]
  · isplitr; · iexact HIb0
    isplitl [HO]; · iexact HO
    isplitl [HtB0]; · iexact HtB0
    isplitl [Ho0]; · iexact Ho0
    iexact HrB0
  iintro HO
  unfold O₁
  iapply (wp_sig m c _ 1 (dev2_eq c) (K (tgt c 1, 0)) (O₂ c) W f0) $$ [HO HtB1 Ho1]
  · isplitr; · iexact HIb1
    isplitl [HO]; · iexact HO
    isplitl [HtB1]; · iexact HtB1
    isplitl [Ho1]; · iexact Ho1
    iexact HrB1
  iintro HO
  unfold O₂
  iapply (wp_sig m c _ 2 (dev3_eq c) (K (tgt c 2, 0)) (OR c) W f0) $$ [HO HtB2 Ho2]
  · isplitr; · iexact HIb2
    isplitl [HO]; · iexact HO
    isplitl [HtB2]; · iexact HtB2
    isplitl [Ho2]; · iexact Ho2
    iexact HrB2
  iintro HO
  -- the wait on its barrier cell, owing the three receive cells: the rows it fills in the three others' results
  iapply (Rounds.wp_wait_rest_token 𝒱₀ ER (a2aRd m) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%g2, Hd2⟩, ⟨%g1, Hd1⟩, ⟨%g0, Hd0⟩⟩

  -- the local copy: it pays the local cell with this device's own rows at their final contents and the block it read
  iapply (Rounds.wp_copy_pointsTo 𝒱₀ ER (a2aRd m) (c : Thread nD τ) none (src := aL c) (dst := oS c) (sem := .dma locS) (q := fullShare)
      (fs := X m c) (fd := f0) (κ := K (c, 7)) (r := 0) (d := 0) (by rw [duties_loc]; exact Finset.mem_singleton_self _) () N rfl (amount_loc m c 0)
      (by rw [payload_loc]; unfold locPay oPts aLPts
          exact sep_mono_left (Entails.of_eq (Region.is_congr (landed_loc m c f0))))) $$ [HaL HoC HtL]
  · isplitr; · iexact HIloc
    isplitl [HaL]; · unfold aLPts; iexact HaL
    isplitl [HoC]; · unfold oPts; iexact HoC
    isplitl [HtL]; · iexact HtL
    iexact HrL
  iintro HcL
  -- the three remote copies
  unfold OR
  iapply (wp_snd m c _ 0 (dev4_eq c) (K (c, 1)) (K (tgt c 0, 4)) _ (tallyAt (rcvCell (tgt c 2) 2) () N + tallyAt (rcvCell (tgt c 1) 1) () N) rfl _ g0) $$ [Ha0 Hd0 HO HtS0 HtV0]
  · isplitr; · iexact HIs0
    isplitr; · iexact HIv0
    isplitl [Ha0]; · iexact Ha0
    isplitl [Hd0]; · iexact Hd0
    isplitl [HO]; · iexact HO
    isplitl [HtS0]; · iexact HtS0
    isplitr; · iexact HrS0
    isplitl [HtV0]; · iexact HtV0
    iexact HrV0
  iintro ⟨HcS0, HO⟩
  iapply (wp_snd m c _ 1 (dev5_eq c) (K (c, 2)) (K (tgt c 1, 5)) _ (tallyAt (rcvCell (tgt c 2) 2) () N) rfl _ g1) $$ [Ha1 Hd1 HO HtS1 HtV1]
  · isplitr; · iexact HIs1
    isplitr; · iexact HIv1
    isplitl [Ha1]; · iexact Ha1
    isplitl [Hd1]; · iexact Hd1
    isplitl [HO]; · iexact HO
    isplitl [HtS1]; · iexact HtS1
    isplitr; · iexact HrS1
    isplitl [HtV1]; · iexact HtV1
    iexact HrV1
  iintro ⟨HcS1, HO⟩
  iapply (wp_snd m c _ 2 (dev6_eq c) (K (c, 3)) (K (tgt c 2, 6)) _ (0) (by rw [zero_add]) _ g2) $$ [Ha2 Hd2 HO HtS2 HtV2]
  · isplitr; · iexact HIs2
    isplitr; · iexact HIv2
    isplitl [Ha2]; · iexact Ha2
    isplitl [Hd2]; · iexact Hd2
    isplitl [HO]; · iexact HO
    isplitl [HtS2]; · iexact HtS2
    isplitr; · iexact HrS2
    isplitl [HtV2]; · iexact HtV2
    iexact HrV2
  iintro ⟨HcS2, HO⟩
  -- the seven waits
  iapply (Rounds.wp_wait_rest_token 𝒱₀ ER (a2aRd m) (c : Thread nD τ) none (κ := K (c, 7))
      (wpE_waitDma2_eq 𝒱₀ (c : Thread nD τ) none Set.univ) (Set.mem_univ _) () (O := 0) (R := 0) (m := 0) (T := ∅)
      (by rw [Nat.zero_add]; exact (expect_loc m c).symm)) $$ [HcL HO HatL]
  · isplitr; · iexact HIloc
    isplitl [HcL]; · iexact HcL
    isplitl [HO]; · iexact HO
    isplitr; · rw [MayWait_zero]; iempintro
    iexact HatL
  iintro ⟨HO, HatL, -, HpL⟩
  iapply (Rounds.wp_wait_rest_token 𝒱₀ ER (a2aRd m) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_snd m c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, HpS0⟩
  iapply (Rounds.wp_wait_rest_token 𝒱₀ ER (a2aRd m) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_rcv m c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, HpR0⟩
  iapply (Rounds.wp_wait_rest_token 𝒱₀ ER (a2aRd m) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_snd m c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, HpS1⟩
  iapply (Rounds.wp_wait_rest_token 𝒱₀ ER (a2aRd m) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_rcv m c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, HpR1⟩
  iapply (Rounds.wp_wait_rest_token 𝒱₀ ER (a2aRd m) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_snd m c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, HpS2⟩
  iapply (Rounds.wp_wait_rest_token 𝒱₀ ER (a2aRd m) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_rcv m c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, HpR2⟩

  -- what the seven waits brought back
  rw [loc_eq, snd0_eq, snd1_eq, snd2_eq, rcv0_eq, rcv1_eq, rcv2_eq]
  ihave HpL := (Entails.of_eq (rest_loc m c)) $$ HpL
  unfold locPay
  icases HpL with ⟨HoC, HaL⟩
  ihave Ha0 := (Entails.of_eq ((rest_snd m c 0).trans (show sndPay m c 0 = aRPts m c 0 from rfl))) $$ HpS0
  ihave Ha1 := (Entails.of_eq ((rest_snd m c 1).trans (show sndPay m c 1 = aRPts m c 1 from rfl))) $$ HpS1
  ihave Ha2 := (Entails.of_eq ((rest_snd m c 2).trans (show sndPay m c 2 = aRPts m c 2 from rfl))) $$ HpS2
  ihave Hr0 := (Entails.of_eq ((rest_rcv m c 0).trans (show rcvPay m c 0 = oPts c (tgt c 2) (outFinal m c) from rfl))) $$ HpR0
  ihave Hr1 := (Entails.of_eq ((rest_rcv m c 1).trans (show rcvPay m c 1 = oPts c (tgt c 1) (outFinal m c) from rfl))) $$ HpR1
  ihave Hr2 := (Entails.of_eq ((rest_rcv m c 2).trans (show rcvPay m c 2 = oPts c (tgt c 0) (outFinal m c) from rfl))) $$ HpR2
  -- the seven own cells close: their counters at zero are the core's again
  imod (Rounds.cell_close ER (a2aRd m) (Set.mem_univ (K (c, 1))) (fun h => h) (R := 0 + 1) (duties_later m (sndCell c 0))) $$ [HatS0] with HzS0
  · isplitr; · iexact HIs0
    iexact HatS0
  imod (Rounds.cell_close ER (a2aRd m) (Set.mem_univ (K (c, 2))) (fun h => h) (R := 0 + 1) (duties_later m (sndCell c 1))) $$ [HatS1] with HzS1
  · isplitr; · iexact HIs1
    iexact HatS1
  imod (Rounds.cell_close ER (a2aRd m) (Set.mem_univ (K (c, 3))) (fun h => h) (R := 0 + 1) (duties_later m (sndCell c 2))) $$ [HatS2] with HzS2
  · isplitr; · iexact HIs2
    iexact HatS2
  imod (Rounds.cell_close ER (a2aRd m) (Set.mem_univ (K (c, 4))) (fun h => h) (R := 0 + 1) (duties_later m (rcvCell c 0))) $$ [HatR0] with HzR0
  · isplitr; · iexact HIr0
    iexact HatR0
  imod (Rounds.cell_close ER (a2aRd m) (Set.mem_univ (K (c, 5))) (fun h => h) (R := 0 + 1) (duties_later m (rcvCell c 1))) $$ [HatR1] with HzR1
  · isplitr; · iexact HIr1
    iexact HatR1
  imod (Rounds.cell_close ER (a2aRd m) (Set.mem_univ (K (c, 6))) (fun h => h) (R := 0 + 1) (duties_later m (rcvCell c 2))) $$ [HatR2] with HzR2
  · isplitr; · iexact HIr2
    iexact HatR2
  imod (Rounds.cell_close ER (a2aRd m) (Set.mem_univ (K (c, 7))) (fun h => h) (R := 0 + 1) (duties_later m (locCell c))) $$ [HatL] with HzL
  · isplitr; · iexact HIloc
    iexact HatL
  rw [wp_ret]; imodintro
  iapply Hk
  unfold bodyPost Φ₁ zeros Dat.owesAt Pipeline.owesWithin
  rw [show (dats m 0 c).owed t₀.succ = 0 from rfl]
  isplitr [HO]
  · isplitl [HaL Ha0 Ha1 Ha2]
    · iapply (arg_split m c).2
      isplitl [HaL]; · iexact HaL
      isplitl [Ha0]; · iexact Ha0
      isplitl [Ha1]; · iexact Ha1
      iexact Ha2
    isplitl [HoC Hr0 Hr1 Hr2]
    · iapply (out_split c (outFinal m c)).2
      isplitl [HoC]; · iexact HoC
      isplitl [Hr2]; · iexact Hr2
      isplitl [Hr1]; · iexact Hr1
      iexact Hr0
    · isplitl [HzS0 HzS1 HzS2]
      · isplitl [HzS0]; · iexact HzS0
        isplitl [HzS1]; · iexact HzS1
        iexact HzS2
      isplitl [HzR0 HzR1 HzR2]
      · isplitl [HzR0]; · iexact HzR0
        isplitl [HzR1]; · iexact HzR1
        iexact HzR2
      iexact HzL
  · iexists (insert (SemLoc.dma (rcvS 2), ()) (insert (SemLoc.dma (sndS 2), ()) (insert (SemLoc.dma (rcvS 1), ()) (insert (SemLoc.dma (sndS 1), ())
      (insert (SemLoc.dma (rcvS 0), ()) (insert (SemLoc.dma (sndS 0), ()) (insert (SemLoc.dma locS, ()) (insert (SemLoc.reg barS, ()) W))))))))
    isplitr; · ipureintro; exact fun _ _ => Or.inl trivial
    iexact HO

/-- The library's body obligation on core `c`. -/
theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ bigSep (Finset.univ : Finset (Fin cfg0.W)) _) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2)
    (fun _ => iprop(Φ₁ m c ∗ (dats m 0 c).owesAt () t₀.succ ∗ bigSep (Finset.univ : Finset (Fin cfg0.W)) _))
  unfold Φ₀ start
  iintro ⟨⟨⟨⟨%K, Hg⟩, Hcr, Hlev⟩, Harg, Hout⟩, Ho, -⟩
  iapply (sound_body m K c _)
  unfold bodyPre bodyPost
  isplitl
  · isplitl [Hg]; · iexact Hg
    isplitl [Hcr]; · iexact Hcr
    isplitl [Hlev]; · iexact Hlev
    isplitl [Harg]; · iexact Harg
    isplitl [Hout]; · iexact Hout
    iexact Ho
  · iintro ⟨HΦ, HO⟩
    isplitl [HΦ]; · iexact HΦ
    isplitl [HO]; · iexact HO
    rw [show (Finset.univ : Finset (Fin cfg0.W)) = ∅ from rfl, bigSep_empty]
    iempintro

end Body

/-- info: 'Cert.Kernel.A2A.body_obligation' depends on axioms: [propext, Classical.choice, Quot.sound] -/
#guard_msgs in #print axioms body_obligation

end Cert.Kernel.A2A

end
-- ==== Proof.KLaunch.lean ====
/-
  The launch of the all-to-all on the 32 devices. Every device has eight cells (its barrier semaphore and its seven
  DMA semaphores); the launch element funds round 0 of each and mints the ten duty tokens of a device's own cells.
  The barrier cell's token of duty `d` and the receive cell `j`'s token travel to the group member that pays them
  (`tgt c (2 - d)`, `tgt c (2 - j)`); the send and local tokens stay. Each device is owed three units on its barrier
  cell and a block's credit on each receive cell, one summand from each of the three others of its group.
  The two arrays travel whole through the launch; at the end they are read against the memory.
-/
import proofs.«900408_g7700000000000409_dist_a2a_v7x_xyz2x4x4_z_m256_n256_f32_1_alg».proof.Proof.KData

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := w.elim0

theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- All the cells of the protocol: eight a device. -/
def a2aCells : Finset (GSem nD τ sig) := Finset.univ.map ⟨kcell, kcell_injective⟩

/-- A device's own cells' duty tokens as minted: its barrier cell's three, one for each send cell, each receive cell
    and the local cell. -/
abbrev tokKey : Fin 10 → SemLoc sig × Fin 3 := fun
  | 0 => (.reg barS, 0) | 1 => (.reg barS, 1) | 2 => (.reg barS, 2)
  | 3 => (.dma (sndS 0), 0) | 4 => (.dma (sndS 1), 0) | 5 => (.dma (sndS 2), 0)
  | 6 => (.dma (rcvS 0), 0) | 7 => (.dma (rcvS 1), 0) | 8 => (.dma (rcvS 2), 0)
  | 9 => (.dma locS, 0)
abbrev tokOf (cj : Dev nD × Fin 10) : GSem nD τ sig × ℕ × Fin 3 := (((cj.1 : Thread nD τ), (tokKey cj.2).1), 0, (tokKey cj.2).2)
theorem tokKey_injective : ∀ j j' : Fin 10, tokKey j = tokKey j' → j = j' := by decide
theorem tokOf_injective : Function.Injective (tokOf : Dev nD × Fin 10 → GSem nD τ sig × ℕ × Fin 3) := by
  rintro ⟨c, j⟩ ⟨c', j'⟩ h
  have h1 : c = c' := congrArg (fun x : GSem nD τ sig × ℕ × Fin 3 => x.1.1.1) h
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_injective j j' h2]
def a2aToks : Finset (GSem nD τ sig × ℕ × Fin 3) := Finset.univ.map ⟨tokOf, tokOf_injective⟩

/-- The launch element: the pipeline library's (no staging cell) and the protocol's. -/
def u₀ : UU :=
  (initOf (Pipeline.cells cfgs cellOf_inj) (Pipeline.launchToks cfgs cellOf_inj), initOf a2aCells a2aToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sndCell c 0) 0 0 ∗ dutyTok ER (sndCell c 1) 0 0 ∗ dutyTok ER (sndCell c 2) 0 0
    ∗ dutyTok ER (rcvCell c 0) 0 0 ∗ dutyTok ER (rcvCell c 1) 0 0 ∗ dutyTok ER (rcvCell c 2) 0 0
    ∗ dutyTok ER (locCell c) 0 0)

/-- What the launch element deals device `c`. -/
def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_fin10]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The seven DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0
        ∗ semVal (rcvCell c 0) 0 ∗ semVal (rcvCell c 1) 0 ∗ semVal (rcvCell c 2) 0 ∗ semVal (locCell c) 0) := by
  rw [Pipeline.ownSems0_eq_of_list c osem [0, 1, 2, 3, 4, 5, 6] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨⟨H1, H2, H3, H4, H5, H6, H7⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  iexact H7

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names `K`, and that round 0 of every cell is reached. -/
def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

instance records_persistent (K : Dev nD × Fin 8 → ℕ) : BI.Persistent (records m K) := by unfold records; infer_instance

omit [FloatOps F] in
theorem inv_at (K : Dev nD × Fin 8 → ℕ) (ck : Dev nD × Fin 8) :
    (bigSep Finset.univ fun ck : Dev nD × Fin 8 => (cellInv ER (a2aRd m) (K ck) (kcell ck) : sProp 𝕄)) ⊢ cellInv ER (a2aRd m) (K ck) (kcell ck) :=
  bigSep_elim (Finset.mem_univ ck)
omit [FloatOps F] in
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

omit [FloatOps F] in
theorem ghost_intro (K : Dev nD × Fin 8 → ℕ) (c : Dev nD) : iprop(records m K ∗ linear c) ⊢ G' m c := by
  unfold records linear G' ghost invs rchd
  iintro ⟨⟨#HI, #HR⟩, Hpos, Htok⟩
  iexists K
  isplitr
  · isplitr; · iapply (inv_at m K (c, 0)); iexact HI
    isplitr
    · isplitr; · iapply (inv_at m K (c, 1)); iexact HI
      isplitr; · iapply (inv_at m K (c, 2)); iexact HI
      iapply (inv_at m K (c, 3)); iexact HI
    isplitr
    · isplitr; · iapply (inv_at m K (c, 4)); iexact HI
      isplitr; · iapply (inv_at m K (c, 5)); iexact HI
      iapply (inv_at m K (c, 6)); iexact HI
    isplitr; · iapply (inv_at m K (c, 7)); iexact HI
    isplitr
    · isplitr; · iapply (inv_at m K (tgt c 0, 0)); iexact HI
      isplitr; · iapply (inv_at m K (tgt c 1, 0)); iexact HI
      iapply (inv_at m K (tgt c 2, 0)); iexact HI
    isplitr; · iapply (inv_at m K (tgt c 0, 4)); iexact HI
    isplitr; · iapply (inv_at m K (tgt c 1, 5)); iexact HI
    iapply (inv_at m K (tgt c 2, 6)); iexact HI
  isplitl [Hpos]; · iexact Hpos
  isplitr
  · isplitr
    · isplitr; · iapply (reached_at (F := F) (tgt c 0, 0)); iexact HR
      isplitr; · iapply (reached_at (F := F) (tgt c 1, 0)); iexact HR
      iapply (reached_at (F := F) (tgt c 2, 0)); iexact HR
    isplitr
    · isplitr; · iapply (reached_at (F := F) (tgt c 0, 4)); iexact HR
      isplitr; · iapply (reached_at (F := F) (tgt c 1, 5)); iexact HR
      iapply (reached_at (F := F) (tgt c 2, 6)); iexact HR
    isplitr
    · isplitr; · iapply (reached_at (F := F) (c, 1)); iexact HR
      isplitr; · iapply (reached_at (F := F) (c, 2)); iexact HR
      iapply (reached_at (F := F) (c, 3)); iexact HR
    iapply (reached_at (F := F) (c, 7)); iexact HR
  iexact Htok

omit [FloatOps F] in
/-- The tokens dealt around each group: the barrier cell's token of duty `d` to the member that pays it, `d + 1` steps
    back; the receive cell `j`'s token to the member `j + 1` steps back; the send and local tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (step 0) (fun c : Dev nD => (dutyTok ER (barCell c) 0 0 : sProp 𝕄)),
    bigSep_univ_equiv (step 1) (fun c : Dev nD => (dutyTok ER (barCell c) 0 1 : sProp 𝕄)),
    bigSep_univ_equiv (step 2) (fun c : Dev nD => (dutyTok ER (barCell c) 0 2 : sProp 𝕄)),
    bigSep_univ_equiv (step 0) (fun c : Dev nD => (dutyTok ER (rcvCell c 0) 0 0 : sProp 𝕄)),
    bigSep_univ_equiv (step 1) (fun c : Dev nD => (dutyTok ER (rcvCell c 1) 0 0 : sProp 𝕄)),
    bigSep_univ_equiv (step 2) (fun c : Dev nD => (dutyTok ER (rcvCell c 2) 0 0 : sProp 𝕄))]
  iintro ⟨B0, B1, B2, S0, S1, S2, R0, R1, R2, HL⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0 S1 S2]
  · isplitl [S0]; · iexact S0
    isplitl [S1]; · iexact S1
    iexact S2
  iexact HL

omit [FloatOps F] in
theorem poss_intro (c : Dev nD) : (bigSep Finset.univ fun k : Fin 8 => (atPos ER (kcell (c, k)) 0 ∅ 0 : sProp 𝕄)) ⊢ poss c := by
  rw [bigSep_fin8]; unfold poss
  iintro ⟨H0, H1, H2, H3, H4, H5, H6, H7⟩
  isplitl [H0]; · iexact H0
  isplitl [H1 H2 H3]
  · isplitl [H1]; · iexact H1
    isplitl [H2]; · iexact H2
    iexact H3
  isplitl [H4 H5 H6]
  · isplitl [H4]; · iexact H4
    isplitl [H5]; · iexact H5
    iexact H6
  iexact H7

omit [FloatOps F] in
theorem poss_all : (bigSep Finset.univ fun c : Dev nD => bigSep Finset.univ fun k : Fin 8 => (atPos ER (kcell (c, k)) 0 ∅ 0 : sProp 𝕄))
    ⊢ bigSep Finset.univ fun c : Dev nD => (poss c : sProp 𝕄) :=
  bigSep_mono fun c _ => poss_intro c

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent' (R := records m K) fun c _ => ghost_intro m K c)
  isplitr
  · unfold records; isplitl; · iexact HI
    iexact HR
  · iapply ((Entails.of_eq (bigSep_sep' Finset.univ (fun c : Dev nD => (poss c : sProp 𝕄)) payToks).symm).trans
      (bigSep_mono fun c _ => show _ ⊢ linear c from BI.Entails.refl _))
    isplitl [Hat]
    · iapply (poss_all (F := F)); iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem rcv_eq_iff {a b : Dev nD} {j : Fin 3} : Iff (rcvCell a j = rcvCell b j) (a = b) :=
  ⟨fun h => Fin.ext (congrArg (fun g : GSem nD τ sig => g.1.1.val) h), fun h => h ▸ rfl⟩
omit [FloatOps F] in
theorem rcv_ne_bar {a b : Dev nD} {j : Fin 3} : rcvCell a j ≠ barCell b := fun h => by
  have := congrArg Prod.snd h; cases this
omit [FloatOps F] in
theorem rcv_ne_rcv {a b : Dev nD} {j j' : Fin 3} (hj : j ≠ j') : rcvCell a j ≠ rcvCell b j' := fun h => by
  have h2 : (SemLoc.dma (rcvS j) : SemLoc sig) = .dma (rcvS j') := congrArg Prod.snd h
  have h3 : (rcvS j).val = (rcvS j').val := by injection h2 with h2; rw [h2]
  exact hj (Fin.ext (by change 3 + j.val = 3 + j'.val at h3; omega))

theorem tgt_eq_iff (d c : Dev nD) (j : Fin 3) : Iff (tgt d j = c) (d = tgt c j.rev) :=
  ⟨fun h => by rw [← h, tgt_tgt_rev], fun h => by rw [h, tgt_rev_tgt]⟩

omit [FloatOps F] in
/-- What the signal `j` of device `d` owes device `c`'s barrier cell: a unit if `d` is `j + 1` steps before `c`. -/
theorem tally_bar (d c : Dev nD) (j : Fin 3) :
    (tallyAt (barCell (tgt d j)) () 1 : CellTallies nD τ sig Unit) (barCell c) () = if d = tgt c j.rev then 1 else 0 := by
  rw [tallyAt_apply]
  by_cases h : d = tgt c j.rev
  · subst h; rw [tgt_rev_tgt, if_pos ⟨rfl, rfl⟩, if_pos rfl]
  · rw [if_neg (fun h' => h ((tgt_eq_iff d c j).mp (bar_eq_iff.mp h'.1).symm)), if_neg h]
omit [FloatOps F] in
/-- What the copy `j` of device `d` owes device `c`'s receive cell `j`: a block's credit if `d` is `j + 1` steps before `c`. -/
theorem tally_rcv (d c : Dev nD) (j : Fin 3) :
    (tallyAt (rcvCell (tgt d j) j) () N : CellTallies nD τ sig Unit) (rcvCell c j) () = if d = tgt c j.rev then N else 0 := by
  rw [tallyAt_apply]
  by_cases h : d = tgt c j.rev
  · subst h; rw [tgt_rev_tgt, if_pos ⟨rfl, rfl⟩, if_pos rfl]
  · rw [if_neg (fun h' => h ((tgt_eq_iff d c j).mp (rcv_eq_iff.mp h'.1).symm)), if_neg h]

omit [FloatOps F] in
theorem owed_bar (d c : Dev nD) : O₀ d (barCell c) () =
    (if d = tgt c (2 : Fin 3).rev then 1 else 0) + (if d = tgt c (1 : Fin 3).rev then 1 else 0) + (if d = tgt c (0 : Fin 3).rev then 1 else 0) := by
  unfold O₀ O₁ O₂ OR
  simp only [Pi.add_apply, Finsupp.add_apply]
  rw [tally_bar, tally_bar, tally_bar, tallyAt_ne_cell (fun h => rcv_ne_bar h.symm), tallyAt_ne_cell (fun h => rcv_ne_bar h.symm),
    tallyAt_ne_cell (fun h => rcv_ne_bar h.symm)]
  simp only [Finsupp.zero_apply, Nat.zero_add]

omit [FloatOps F] in
theorem owed_rcv (d c : Dev nD) (j : Fin 3) : O₀ d (rcvCell c j) () = if d = tgt c j.rev then N else 0 := by
  unfold O₀ O₁ O₂ OR
  simp only [Pi.add_apply, Finsupp.add_apply]
  rw [tallyAt_ne_cell (g := barCell (tgt d 0)) rcv_ne_bar, tallyAt_ne_cell (g := barCell (tgt d 1)) rcv_ne_bar, tallyAt_ne_cell (g := barCell (tgt d 2)) rcv_ne_bar]
  fin_cases j
  · rw [tallyAt_ne_cell (g := rcvCell (tgt d 2) 2) (rcv_ne_rcv (by decide)), tallyAt_ne_cell (g := rcvCell (tgt d 1) 1) (rcv_ne_rcv (by decide))]
    simp only [Finsupp.zero_apply, Nat.zero_add, Nat.add_zero]
    exact tally_rcv d c 0
  · rw [tallyAt_ne_cell (g := rcvCell (tgt d 2) 2) (rcv_ne_rcv (by decide)), tallyAt_ne_cell (g := rcvCell (tgt d 0) 0) (rcv_ne_rcv (by decide))]
    simp only [Finsupp.zero_apply, Nat.zero_add, Nat.add_zero]
    exact tally_rcv d c 1
  · rw [tallyAt_ne_cell (g := rcvCell (tgt d 1) 1) (rcv_ne_rcv (by decide)), tallyAt_ne_cell (g := rcvCell (tgt d 0) 0) (rcv_ne_rcv (by decide))]
    simp only [Finsupp.zero_apply, Nat.zero_add, Nat.add_zero]
    exact tally_rcv d c 2

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (tgt c (2 : Fin 3).rev) fun _ => 1, Finset.sum_ite_eq' Finset.univ (tgt c (1 : Fin 3).rev) fun _ => 1,
    Finset.sum_ite_eq' Finset.univ (tgt c (0 : Fin 3).rev) fun _ => 1, if_pos (Finset.mem_univ _), if_pos (Finset.mem_univ _), if_pos (Finset.mem_univ _)]

omit [FloatOps F] in
theorem launch_rcv (c : Dev nD) (j : Fin 3) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => owed_rcv d c j, Finset.sum_ite_eq' Finset.univ (tgt c j.rev) fun _ => N,
    if_pos (Finset.mem_univ _)]

omit [FloatOps F] in
/-- The launch credit of a device: three units on its barrier cell, a block's credit on each receive cell. -/
theorem launch_creds (c : Dev nD) : (Pipeline.launchCred O₀ c : sProp 𝕄) ⊢ creds c := by
  unfold Pipeline.launchCred creds
  refine (bigSep_subset (t := [SemLoc.reg barS, SemLoc.dma (rcvS 0), SemLoc.dma (rcvS 1), SemLoc.dma (rcvS 2)].toFinset) (Finset.subset_univ _)).trans ?_
  rw [bigSep_eq_bigSepL_of_eq [SemLoc.reg barS, SemLoc.dma (rcvS 0), SemLoc.dma (rcvS 1), SemLoc.dma (rcvS 2)] rfl (by decide)]
  rw [← launch_bar, ← launch_rcv c 0, ← launch_rcv c 1, ← launch_rcv c 2]
  exact BI.Entails.refl _

/-! ### The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, Gen.unscopedRest0_eq]
  iintro ⟨⟨Ha, Ho⟩, Hlev, Hcr, -, HG⟩
  ihave Hc := (launch_creds (F := F) c) $$ Hcr
  imodintro
  unfold Φ₀ start G' argPts outPts X
  isplitl
  · isplitl [HG Hc Hlev]
    · isplitl [HG]; · iexact HG
      isplitl [Hc]; · iexact Hc
      iexact Hlev
    isplitl [Ha]; · iexact Ha
    iexists (m ((c : Thread nD τ).loc main_v1)); iexact Ho
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop(iprop(argPts m c ∗ outPts c (outFinal m c)) ∗ Pipeline.ownSems0 osem c ∗ Pipeline.scopedRest cfg0.spec c) := by
  rw [show (dats m 0 c).Φ (Fin.last cfg0.N) = Φ₁ m c from rfl, Gen.scopedRest0_eq, ownSems0_eq]
  unfold Φ₁ zeros
  iintro ⟨Ha, Ho, ⟨S0, S1, S2⟩, ⟨R0, R1, R2⟩, HL⟩
  isplitl [Ha Ho]
  · isplitl [Ha] <;> iassumption
  isplitl
  · isplitl [S0]; · iexact S0
    isplitl [S1]; · iexact S1
    isplitl [S2]; · iexact S2
    isplitl [R0]; · iexact R0
    isplitl [R1]; · iexact R1
    isplitl [R2]; · iexact R2
    iexact HL
  · iempintro

theorem waits (c : Dev nD) : (levAts L lv : sProp 𝕄) ⊢ Pipeline.cellsWaits cfgs (dats m) () 0 c :=
  Pipeline.cellsWaits_intro cfgs (dats m) () 0 c fun w s t => w.elim0

/-! ### The run -/

set_option maxRecDepth 8000 in
/-- At the compiled mesh of 32 devices, for any float values, from any memory with zero counters: every weakly fair
    execution of @main terminates, and every final state has each device's result array at `outFinal` and its
    argument unchanged — given the body's obligation from `Φ₀` to `Φ₁`. -/
theorem run_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c : Thread nD τ).loc main_v1) = outFinal m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := Φ₀ m) (Y := fun c => iprop(argPts m c ∗ outPts c (outFinal m c))) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold argPts outPts X
      iintro ⟨⟨Ha, Ho⟩, -, HSI⟩
      icombine HSI Ha gives %ha
      icombine HSI Ho gives %ho
      imodintro
      isplitr; · ipureintro; exact ⟨Buf.eq_of_forall_mem_univ ho, Buf.eq_of_forall_mem_univ ha⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.RefRun.lean ====
/-
  The reference program does nothing: its @main is the return of its argument. Every weakly fair execution of it
  terminates without fault and leaves every buffer, the argument array among them, as it was launched.
-/
import proofs.«900408_g7700000000000409_dist_a2a_v7x_xyz2x4x4_z_m256_n256_f32_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]

/-- @main's operations: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

/-- For any float values, from any memory with zero counters: every weakly fair execution of @main terminates,
    nothing faulting, with the argument array of every device (the mesh has one) unchanged. -/
theorem run (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run defs _ _).mono (fun _ h c => (h c main_arg0).trans rfl)
    (run_seq scopedRefs_eq scopedSems_eq defs main (fun _ => ops) main_eq (fun _ => ops_sub) m g)

/-- info: 'Cert.ReferenceIdeal.RefRun.run' depends on axioms: [propext, Classical.choice, Quot.sound] -/
#guard_msgs in #print axioms run

end Cert.ReferenceIdeal.RefRun

end
-- ==== Proof.lean ====
/-
  The all-to-all along the last axis of a 2 × 4 × 4 mesh against the identity.
  The whole array is cut into four blocks of 256 rows; the device at last coordinate z holds block z. Inside each
  group of four devices that share the first two coordinates, device z keeps the column block z of its rows and
  sends column block k to the member k, and every block lands in rows 256 z … of the receiver's result. So the
  result of the member k has, in row block z, the columns 256 k … of the rows 256 z … of the whole array: it is
  column block k of the whole array, which is what the identity's result, cut along the columns, assigns it.
  No arithmetic is done, so the precondition is not used and the two programs agree at every extended real.
  The frames: the reference does nothing; the kernel's run ends with every argument block as launched
  (the copies only read them). The ideal pass rewrote nothing, so the idealization claim is trivial.
-/
import proofs.«900408_g7700000000000409_dist_a2a_v7x_xyz2x4x4_z_m256_n256_f32_1_alg».proof.Defs
import proofs.«900408_g7700000000000409_dist_a2a_v7x_xyz2x4x4_z_m256_n256_f32_1_alg».proof.Proof.Gen.Kernel
import proofs.«900408_g7700000000000409_dist_a2a_v7x_xyz2x4x4_z_m256_n256_f32_1_alg».proof.Proof.Gen.KernelIdeal
import proofs.«900408_g7700000000000409_dist_a2a_v7x_xyz2x4x4_z_m256_n256_f32_1_alg».proof.Proof.Gen.ReferenceIdeal
import proofs.«900408_g7700000000000409_dist_a2a_v7x_xyz2x4x4_z_m256_n256_f32_1_alg».proof.Proof.Gen.Pre_finite_inputs_Kernel
import proofs.«900408_g7700000000000409_dist_a2a_v7x_xyz2x4x4_z_m256_n256_f32_1_alg».proof.Proof.Gen.Pre_finite_inputs_ReferenceIdeal
import proofs.«900408_g7700000000000409_dist_a2a_v7x_xyz2x4x4_z_m256_n256_f32_1_alg».proof.Proof.Body
import proofs.«900408_g7700000000000409_dist_a2a_v7x_xyz2x4x4_z_m256_n256_f32_1_alg».proof.Proof.Launch
import proofs.«900408_g7700000000000409_dist_a2a_v7x_xyz2x4x4_z_m256_n256_f32_1_alg».proof.Proof.KBody
import proofs.«900408_g7700000000000409_dist_a2a_v7x_xyz2x4x4_z_m256_n256_f32_1_alg».proof.Proof.KLaunch
import proofs.«900408_g7700000000000409_dist_a2a_v7x_xyz2x4x4_z_m256_n256_f32_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its argument blocks as launched. -/
theorem frame_k : Cert.frame_Kernel := fun m g _ =>
  (θ_run (Cert.Kernel.defs (F := Bits)) _ _).mono (fun _ h c => (h c).2)
    (Cert.Kernel.A2A.run_main (F := Bits) m g (Cert.Kernel.A2A.body_obligation m))

/-- So does the kernel read at the extended reals. -/
theorem frame_ki : Cert.frame_KernelIdeal := fun m g _ =>
  (θ_run (Cert.KernelIdeal.defs (F := Ideal)) _ _).mono (fun _ h c => (h c).2)
    (Cert.KernelIdeal.A2A.run_main (F := Ideal) m g (Cert.KernelIdeal.A2A.body_obligation m))

/-- The reference does nothing. -/
theorem frame_ri : Cert.frame_ReferenceIdeal := fun m g _ => Cert.ReferenceIdeal.RefRun.run m g

/-- The ideal pass rewrote no operation. -/
theorem preserves : Cert.preserves_Kernel_KernelIdeal := trivial

/-- The reference's result is its argument `v`; each device's result ends as its column block of `v`, because the
    devices' argument blocks are the row blocks of `v`. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun r h c => ⟨(h c).1.trans ?_, (h c).2⟩)
      (Cert.KernelIdeal.A2A.run_main (F := Ideal) m g (Cert.KernelIdeal.A2A.body_obligation m))
    exact Cert.KernelIdeal.A2A.outFinal_block m _ hagree c
  · exact (θ_run (Cert.ReferenceIdeal.defs (F := Ideal)) _ _).mono (fun r h => ⟨h 0, h 0⟩) (Cert.ReferenceIdeal.RefRun.run m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
